-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v25_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x512 : Shape := ⟨4, ![16, 64, 64, 512]⟩
abbrev S_ : Shape := ⟨0, ![]⟩

class Facts : Prop where
  bcast_S_S16x64x64x512 : S_.BroadcastsInDim S16x64x64x512 (![] : Fin 0 → Fin S16x64x64x512.rank)
  reducesTo_S16x64x64x512_S_d0_1_2_3 : S16x64x64x512.ReducesTo [0, 1, 2, 3] S_
  h_S_ : 0 < S_.numel

variable [Facts]

def fn {F : FTy → Type} [FloatOps F] (main_arg0 : FVec F S16x64x64x512 .f32) : IVec S_ 1 :=
  let main_v0 : FVec F S16x64x64x512 .f32 := Host.absf main_arg0
  let main_cst : FVec F S_ .f32 := constant S_ .f32 0x7F800000#32
  let main_v1 : FVec F S16x64x64x512 .f32 := broadcastInDim S16x64x64x512 ![] bcast_S_S16x64x64x512 main_cst
  let main_v2 : IVec S16x64x64x512 1 := cmpf .olt main_v0 main_v1
  let main_c : IVec S_ 1 := constantI S_ 1 1#1
  let main_v3 : IVec S_ 1 := (fun x v => Host.reduce IntOp.andi x v reducesTo_S16x64x64x512_S_d0_1_2_3 h_S_) main_v2 main_c
  main_v3
-- ==== Kernel.lean ====
abbrev S16x64x64x512 : Shape := ⟨4, ![16, 64, 64, 512]⟩
abbrev S_ : Shape := ⟨0, ![]⟩
abbrev S16x8 : Shape := ⟨2, ![16, 8]⟩
abbrev S16x64x64x64 : Shape := ⟨4, ![16, 64, 64, 64]⟩
abbrev S16x16x8 : Shape := ⟨3, ![16, 16, 8]⟩
abbrev S16x4x64x512 : Shape := ⟨4, ![16, 4, 64, 512]⟩
abbrev S16x4x64x64 : Shape := ⟨4, ![16, 4, 64, 64]⟩
abbrev S1x16x8 : Shape := ⟨3, ![1, 16, 8]⟩
abbrev S16x1 : Shape := ⟨2, ![16, 1]⟩
abbrev S16x1x1x1 : Shape := ⟨4, ![16, 1, 1, 1]⟩
abbrev S16x4x64 : Shape := ⟨3, ![16, 4, 64]⟩
abbrev S16x4x64x1 : Shape := ⟨4, ![16, 4, 64, 1]⟩
abbrev S16x4x1 : Shape := ⟨3, ![16, 4, 1]⟩
abbrev S16x4x1x1 : Shape := ⟨4, ![16, 4, 1, 1]⟩
abbrev S16x1x1 : Shape := ⟨3, ![16, 1, 1]⟩

abbrev nBuf : Space → Nat
  | .hbm => 39
  | .vmem => 21
  | .smem => 0
  | _ => 0

abbrev bufTy : (tb : Table) → Fin (tcTables nBuf tb) → BufTy
  | .hbm, ⟨0, _⟩ => ⟨S16x64x64x512, .f32⟩
  | .hbm, ⟨1, _⟩ => ⟨S_, .f32⟩
  | .hbm, ⟨2, _⟩ => ⟨S16x8, .f32⟩
  | .hbm, ⟨3, _⟩ => ⟨S16x8, .f32⟩
  | .hbm, ⟨4, _⟩ => ⟨S16x8, .f32⟩
  | .hbm, ⟨5, _⟩ => ⟨S_, .f32⟩
  | .hbm, ⟨6, _⟩ => ⟨S16x8, .f32⟩
  | .hbm, ⟨7, _⟩ => ⟨S16x8, .f32⟩
  | .hbm, ⟨8, _⟩ => ⟨S_, .f32⟩
  | .hbm, ⟨9, _⟩ => ⟨S16x8, .f32⟩
  | .hbm, ⟨10, _⟩ => ⟨S16x8, .f32⟩
  | .hbm, ⟨11, _⟩ => ⟨S16x64x64x64, .f32⟩
  | .hbm, ⟨12, _⟩ => ⟨S16x16x8, .f32⟩
  | .hbm, ⟨13, _⟩ => ⟨S_, .f32⟩
  | .hbm, ⟨14, _⟩ => ⟨S16x8, .f32⟩
  | .hbm, ⟨15, _⟩ => ⟨S16x8, .f32⟩
  | .hbm, ⟨16, _⟩ => ⟨S16x8, .f32⟩
  | .hbm, ⟨17, _⟩ => ⟨S16x8, .f32⟩
  | .hbm, ⟨18, _⟩ => ⟨S_, .f32⟩
  | .hbm, ⟨19, _⟩ => ⟨S16x8, .f32⟩
  | .hbm, ⟨20, _⟩ => ⟨S16x8, .f32⟩
  | .hbm, ⟨21, _⟩ => ⟨S_, .f32⟩
  | .hbm, ⟨22, _⟩ => ⟨S16x8, .f32⟩
  | .hbm, ⟨23, _⟩ => ⟨S16x8, .f32⟩
  | .hbm, ⟨24, _⟩ => ⟨S16x64x64x64, .f32⟩
  | .hbm, ⟨25, _⟩ => ⟨S16x16x8, .f32⟩
  | .hbm, ⟨26, _⟩ => ⟨S_, .f32⟩
  | .hbm, ⟨27, _⟩ => ⟨S16x8, .f32⟩
  | .hbm, ⟨28, _⟩ => ⟨S16x8, .f32⟩
  | .hbm, ⟨29, _⟩ => ⟨S16x8, .f32⟩
  | .hbm, ⟨30, _⟩ => ⟨S16x8, .f32⟩
  | .hbm, ⟨31, _⟩ => ⟨S_, .f32⟩
  | .hbm, ⟨32, _⟩ => ⟨S16x8, .f32⟩
  | .hbm, ⟨33, _⟩ => ⟨S16x8, .f32⟩
  | .hbm, ⟨34, _⟩ => ⟨S_, .f32⟩
  | .hbm, ⟨35, _⟩ => ⟨S16x8, .f32⟩
  | .hbm, ⟨36, _⟩ => ⟨S16x8, .f32⟩
  | .hbm, ⟨37, _⟩ => ⟨S16x64x64x64, .f32⟩
  | .hbm, ⟨38, _⟩ => ⟨S16x16x8, .f32⟩
  | .local _ .vmem, ⟨0, _⟩ => ⟨S16x8, .f32⟩
  | .local _ .vmem, ⟨1, _⟩ => ⟨S16x4x64x512, .f32⟩
  | .local _ .vmem, ⟨2, _⟩ => ⟨S16x4x64x512, .f32⟩
  | .local _ .vmem, ⟨3, _⟩ => ⟨S16x4x64x64, .f32⟩
  | .local _ .vmem, ⟨4, _⟩ => ⟨S16x4x64x64, .f32⟩
  | .local _ .vmem, ⟨5, _⟩ => ⟨S1x16x8, .f32⟩
  | .local _ .vmem, ⟨6, _⟩ => ⟨S1x16x8, .f32⟩
  | .local _ .vmem, ⟨7, _⟩ => ⟨S16x8, .f32⟩
  | .local _ .vmem, ⟨8, _⟩ => ⟨S16x4x64x512, .f32⟩
  | .local _ .vmem, ⟨9, _⟩ => ⟨S16x4x64x512, .f32⟩
  | .local _ .vmem, ⟨10, _⟩ => ⟨S16x4x64x64, .f32⟩
  | .local _ .vmem, ⟨11, _⟩ => ⟨S16x4x64x64, .f32⟩
  | .local _ .vmem, ⟨12, _⟩ => ⟨S1x16x8, .f32⟩
  | .local _ .vmem, ⟨13, _⟩ => ⟨S1x16x8, .f32⟩
  | .local _ .vmem, ⟨14, _⟩ => ⟨S16x8, .f32⟩
  | .local _ .vmem, ⟨15, _⟩ => ⟨S16x4x64x512, .f32⟩
  | .local _ .vmem, ⟨16, _⟩ => ⟨S16x4x64x512, .f32⟩
  | .local _ .vmem, ⟨17, _⟩ => ⟨S16x4x64x64, .f32⟩
  | .local _ .vmem, ⟨18, _⟩ => ⟨S16x4x64x64, .f32⟩
  | .local _ .vmem, ⟨19, _⟩ => ⟨S1x16x8, .f32⟩
  | .local _ .vmem, ⟨20, _⟩ => ⟨S1x16x8, .f32⟩
  | _, _ => ⟨S16x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S16x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x4x64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x4x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S16x8 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S16x4x64x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x4x64x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x16x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S16x8 : S_.BroadcastsInDim S16x8 (![] : Fin 0 → Fin S16x8.rank)
  inb_S16x8_S16x8_0_0 : ∀ a, (![0, 0] : Fin 2 → Nat) a + S16x8.size a ≤ S16x8.size a
  h_S16x8 : 0 < S16x8.numel
  shapeCasts_S16x8_S16x8 : S16x8.ShapeCasts S16x8
  slices_S16x8_o0_0_S16x1 : S16x8.Slices ![0, 0] S16x1
  shapeCasts_S16x1_S16x1x1x1 : S16x1.ShapeCasts S16x1x1x1
  inb_S16x4x64x512_S16x4x64x64_0_0_0_0 : ∀ a, (![0, 0, 0, 0] : Fin 4 → Nat) a + S16x4x64x64.size a ≤ S16x4x64x512.size a
  h_S16x4x64x64 : 0 < S16x4x64x64.numel
  broadcasts_S16x1x1x1_S16x4x64x64 : S16x1x1x1.Broadcasts S16x4x64x64
  slices_S16x8_o0_1_S16x1 : S16x8.Slices ![0, 1] S16x1
  inb_S16x4x64x512_S16x4x64x64_0_0_0_64 : ∀ a, (![0, 0, 0, 64] : Fin 4 → Nat) a + S16x4x64x64.size a ≤ S16x4x64x512.size a
  slices_S16x8_o0_2_S16x1 : S16x8.Slices ![0, 2] S16x1
  inb_S16x4x64x512_S16x4x64x64_0_0_0_128 : ∀ a, (![0, 0, 0, 128] : Fin 4 → Nat) a + S16x4x64x64.size a ≤ S16x4x64x512.size a
  slices_S16x8_o0_3_S16x1 : S16x8.Slices ![0, 3] S16x1
  inb_S16x4x64x512_S16x4x64x64_0_0_0_192 : ∀ a, (![0, 0, 0, 192] : Fin 4 → Nat) a + S16x4x64x64.size a ≤ S16x4x64x512.size a
  slices_S16x8_o0_4_S16x1 : S16x8.Slices ![0, 4] S16x1
  inb_S16x4x64x512_S16x4x64x64_0_0_0_256 : ∀ a, (![0, 0, 0, 256] : Fin 4 → Nat) a + S16x4x64x64.size a ≤ S16x4x64x512.size a
  slices_S16x8_o0_5_S16x1 : S16x8.Slices ![0, 5] S16x1
  inb_S16x4x64x512_S16x4x64x64_0_0_0_320 : ∀ a, (![0, 0, 0, 320] : Fin 4 → Nat) a + S16x4x64x64.size a ≤ S16x4x64x512.size a
  slices_S16x8_o0_6_S16x1 : S16x8.Slices ![0, 6] S16x1
  inb_S16x4x64x512_S16x4x64x64_0_0_0_384 : ∀ a, (![0, 0, 0, 384] : Fin 4 → Nat) a + S16x4x64x64.size a ≤ S16x4x64x512.size a
  slices_S16x8_o0_7_S16x1 : S16x8.Slices ![0, 7] S16x1
  inb_S16x4x64x512_S16x4x64x64_0_0_0_448 : ∀ a, (![0, 0, 0, 448] : Fin 4 → Nat) a + S16x4x64x64.size a ≤ S16x4x64x512.size a
  inb_S16x4x64x64_S16x4x64x64_0_0_0_0 : ∀ a, (![0, 0, 0, 0] : Fin 4 → Nat) a + S16x4x64x64.size a ≤ S16x4x64x64.size a
  reduces_S16x4x64x64_S16x4x64 : S16x4x64x64.Reduces [3] S16x4x64
  shapeCasts_S16x4x64_S16x4x64x1 : S16x4x64.ShapeCasts S16x4x64x1
  reduces_S16x4x64x1_S16x4x1 : S16x4x64x1.Reduces [2] S16x4x1
  shapeCasts_S16x4x1_S16x4x1x1 : S16x4x1.ShapeCasts S16x4x1x1
  reduces_S16x4x1x1_S16x1x1 : S16x4x1x1.Reduces [1] S16x1x1
  shapeCasts_S16x1x1_S16x1x1x1 : S16x1x1.ShapeCasts S16x1x1x1
  shapeCasts_S16x1x1x1_S16x1 : S16x1x1x1.ShapeCasts S16x1
  concatenates_S16x1_S16x1_S16x1_S16x1_S16x1_S16x1_S16x1_S16x1_S16x8_d1 : Shape.Concatenates [S16x1, S16x1, S16x1, S16x1, S16x1, S16x1, S16x1, S16x1] S16x8 1
  shapeCasts_S16x8_S1x16x8 : S16x8.ShapeCasts S1x16x8
  inb_S1x16x8_S1x16x8_0_0_0 : ∀ a, (![0, 0, 0] : Fin 3 → Nat) a + S1x16x8.size a ≤ S1x16x8.size a
  h_S1x16x8 : 0 < S1x16x8.numel
  reducesTo_S16x16x8_S16x8_d0 : S16x16x8.ReducesTo [0] S16x8
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8.size a ≤ S16x8.size a
  hwx0_0 : ∀ i : grid0.Coords, EltTy.bits .f32 = 32 ∨ (Rect.block (s := S16x8) S16x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4x64x512.size a ≤ S16x64x64x512.size a
  hwx0_1 : ∀ i : grid0.Coords, EltTy.bits .f32 = 32 ∨ (Rect.block (s := S16x64x64x512) S16x4x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4x64x64.size a ≤ S16x64x64x64.size a
  hwx0_2 : ∀ i : grid0.Coords, EltTy.bits .f32 = 32 ∨ (Rect.block (s := S16x64x64x64) S16x4x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x8.size a ≤ S16x16x8.size a
  hwx0_3 : ∀ i : grid0.Coords, EltTy.bits .f32 = 32 ∨ (Rect.block (s := S16x16x8) S1x16x8.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x8.size a ≤ S16x8.size a
  hwx1_0 : ∀ i : grid1.Coords, EltTy.bits .f32 = 32 ∨ (Rect.block (s := S16x8) S16x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x4x64x512.size a ≤ S16x64x64x512.size a
  hwx1_1 : ∀ i : grid1.Coords, EltTy.bits .f32 = 32 ∨ (Rect.block (s := S16x64x64x512) S16x4x64x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x4x64x64.size a ≤ S16x64x64x64.size a
  hwx1_2 : ∀ i : grid1.Coords, EltTy.bits .f32 = 32 ∨ (Rect.block (s := S16x64x64x64) S16x4x64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x8.size a ≤ S16x16x8.size a
  hwx1_3 : ∀ i : grid1.Coords, EltTy.bits .f32 = 32 ∨ (Rect.block (s := S16x16x8) S1x16x8.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16x8.size a ≤ S16x8.size a
  hwx2_0 : ∀ i : grid2.Coords, EltTy.bits .f32 = 32 ∨ (Rect.block (s := S16x8) S16x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x4x64x512.size a ≤ S16x64x64x512.size a
  hwx2_1 : ∀ i : grid2.Coords, EltTy.bits .f32 = 32 ∨ (Rect.block (s := S16x64x64x512) S16x4x64x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x4x64x64.size a ≤ S16x64x64x64.size a
  hwx2_2 : ∀ i : grid2.Coords, EltTy.bits .f32 = 32 ∨ (Rect.block (s := S16x64x64x64) S16x4x64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x16x8.size a ≤ S16x16x8.size a
  hwx2_3 : ∀ i : grid2.Coords, EltTy.bits .f32 = 32 ∨ (Rect.block (s := S16x16x8) S1x16x8.size (cc2_transform_3 i) (hinb2_3 i)).WholeWords (EltTy.packing .f32)

variable [Facts₀]

abbrev win0_0 : Pipeline.Window sig grid0 :=
  Pipeline.Window.ofSpec (Memref.whole main_v6) S16x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x4x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S16x4x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x16x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S16x8.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S16x4x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16_0) S16x4x64x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_1) S1x16x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S16x8.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S16x4x64x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25_0) S16x4x64x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25_1) S1x16x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x64x64x512 : Shape := ⟨4, ![16, 64, 64, 512]⟩
abbrev S16x64x64x8x64 : Shape := ⟨5, ![16, 64, 64, 8, 64]⟩
abbrev S_ : Shape := ⟨0, ![]⟩
abbrev S16x1x1x8x1 : Shape := ⟨5, ![16, 1, 1, 8, 1]⟩
abbrev S16x64x64x1x64 : Shape := ⟨5, ![16, 64, 64, 1, 64]⟩
abbrev S16x64x64x64 : Shape := ⟨4, ![16, 64, 64, 64]⟩
abbrev S16x8 : Shape := ⟨2, ![16, 8]⟩

abbrev nBuf : Space → Nat
  | .hbm => 58
  | .vmem => 0
  | .smem => 0
  | _ => 0

abbrev bufTy : (tb : Table) → Fin (tcTables nBuf tb) → BufTy
  | .hbm, ⟨0, _⟩ => ⟨S16x64x64x512, .f32⟩
  | .hbm, ⟨1, _⟩ => ⟨S16x64x64x8x64, .f32⟩
  | .hbm, ⟨2, _⟩ => ⟨S_, .f32⟩
  | .hbm, ⟨3, _⟩ => ⟨S16x1x1x8x1, .f32⟩
  | .hbm, ⟨4, _⟩ => ⟨S_, .f32⟩
  | .hbm, ⟨5, _⟩ => ⟨S16x64x64x1x64, .f32⟩
  | .hbm, ⟨6, _⟩ => ⟨S16x1x1x8x1, .f32⟩
  | .hbm, ⟨7, _⟩ => ⟨S16x1x1x8x1, .f32⟩
  | .hbm, ⟨8, _⟩ => ⟨S_, .f32⟩
  | .hbm, ⟨9, _⟩ => ⟨S16x1x1x8x1, .f32⟩
  | .hbm, ⟨10, _⟩ => ⟨S16x1x1x8x1, .f32⟩
  | .hbm, ⟨11, _⟩ => ⟨S_, .f32⟩
  | .hbm, ⟨12, _⟩ => ⟨S16x1x1x8x1, .f32⟩
  | .hbm, ⟨13, _⟩ => ⟨S16x1x1x8x1, .f32⟩
  | .hbm, ⟨14, _⟩ => ⟨S16x64x64x8x64, .f32⟩
  | .hbm, ⟨15, _⟩ => ⟨S16x64x64x8x64, .f32⟩
  | .hbm, ⟨16, _⟩ => ⟨S_, .f32⟩
  | .hbm, ⟨17, _⟩ => ⟨S16x64x64x64, .f32⟩
  | .hbm, ⟨18, _⟩ => ⟨S16x64x64x1x64, .f32⟩
  | .hbm, ⟨19, _⟩ => ⟨S16x64x64x8x64, .f32⟩
  | .hbm, ⟨20, _⟩ => ⟨S16x64x64x8x64, .f32⟩
  | .hbm, ⟨21, _⟩ => ⟨S_, .f32⟩
  | .hbm, ⟨22, _⟩ => ⟨S16x8, .f32⟩
  | .hbm, ⟨23, _⟩ => ⟨S16x1x1x8x1, .f32⟩
  | .hbm, ⟨24, _⟩ => ⟨S16x1x1x8x1, .f32⟩
  | .hbm, ⟨25, _⟩ => ⟨S16x1x1x8x1, .f32⟩
  | .hbm, ⟨26, _⟩ => ⟨S16x1x1x8x1, .f32⟩
  | .hbm, ⟨27, _⟩ => ⟨S_, .f32⟩
  | .hbm, ⟨28, _⟩ => ⟨S16x1x1x8x1, .f32⟩
  | .hbm, ⟨29, _⟩ => ⟨S16x1x1x8x1, .f32⟩
  | .hbm, ⟨30, _⟩ => ⟨S_, .f32⟩
  | .hbm, ⟨31, _⟩ => ⟨S16x1x1x8x1, .f32⟩
  | .hbm, ⟨32, _⟩ => ⟨S16x1x1x8x1, .f32⟩
  | .hbm, ⟨33, _⟩ => ⟨S16x64x64x8x64, .f32⟩
  | .hbm, ⟨34, _⟩ => ⟨S16x64x64x8x64, .f32⟩
  | .hbm, ⟨35, _⟩ => ⟨S_, .f32⟩
  | .hbm, ⟨36, _⟩ => ⟨S16x64x64x64, .f32⟩
  | .hbm, ⟨37, _⟩ => ⟨S16x64x64x1x64, .f32⟩
  | .hbm, ⟨38, _⟩ => ⟨S16x64x64x8x64, .f32⟩
  | .hbm, ⟨39, _⟩ => ⟨S16x64x64x8x64, .f32⟩
  | .hbm, ⟨40, _⟩ => ⟨S_, .f32⟩
  | .hbm, ⟨41, _⟩ => ⟨S16x8, .f32⟩
  | .hbm, ⟨42, _⟩ => ⟨S16x1x1x8x1, .f32⟩
  | .hbm, ⟨43, _⟩ => ⟨S16x1x1x8x1, .f32⟩
  | .hbm, ⟨44, _⟩ => ⟨S16x1x1x8x1, .f32⟩
  | .hbm, ⟨45, _⟩ => ⟨S16x1x1x8x1, .f32⟩
  | .hbm, ⟨46, _⟩ => ⟨S_, .f32⟩
  | .hbm, ⟨47, _⟩ => ⟨S16x1x1x8x1, .f32⟩
  | .hbm, ⟨48, _⟩ => ⟨S16x1x1x8x1, .f32⟩
  | .hbm, ⟨49, _⟩ => ⟨S_, .f32⟩
  | .hbm, ⟨50, _⟩ => ⟨S16x1x1x8x1, .f32⟩
  | .hbm, ⟨51, _⟩ => ⟨S16x1x1x8x1, .f32⟩
  | .hbm, ⟨52, _⟩ => ⟨S16x64x64x8x64, .f32⟩
  | .hbm, ⟨53, _⟩ => ⟨S16x64x64x8x64, .f32⟩
  | .hbm, ⟨54, _⟩ => ⟨S_, .f32⟩
  | .hbm, ⟨55, _⟩ => ⟨S16x64x64x64, .f32⟩
  | .hbm, ⟨56, _⟩ => ⟨S16x64x64x1x64, .f32⟩
  | .hbm, ⟨57, _⟩ => ⟨S16x64x64x64, .f32⟩
  | _, _ => ⟨S16x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_8 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_9 : Ref sig .tc := ⟨.hbm, 46, rfl⟩
abbrev main_v35 : Ref sig .tc := ⟨.hbm, 47, rfl⟩
abbrev main_v36 : Ref sig .tc := ⟨.hbm, 48, rfl⟩
abbrev main_cst_10 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_11 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  shapeCasts_S16x64x64x512_S16x64x64x8x64 : S16x64x64x512.ShapeCasts S16x64x64x8x64
  bcast_S_S16x1x1x8x1 : S_.BroadcastsInDim S16x1x1x8x1 (![] : Fin 0 → Fin S16x1x1x8x1.rank)
  bcast_S_S16x64x64x1x64 : S_.BroadcastsInDim S16x64x64x1x64 (![] : Fin 0 → Fin S16x64x64x1x64.rank)
  bcast_S16x1x1x8x1_S16x64x64x8x64_0_1_2_3_4 : S16x1x1x8x1.BroadcastsInDim S16x64x64x8x64 (![0, 1, 2, 3, 4] : Fin 5 → Fin S16x64x64x8x64.rank)
  reducesTo_S16x64x64x8x64_S16x64x64x64_d3 : S16x64x64x8x64.ReducesTo [3] S16x64x64x64
  h_S_ : 0 < S_.numel
  bcast_S16x64x64x64_S16x64x64x1x64_0_1_2_4 : S16x64x64x64.BroadcastsInDim S16x64x64x1x64 (![0, 1, 2, 4] : Fin 4 → Fin S16x64x64x1x64.rank)
  bcast_S16x64x64x1x64_S16x64x64x8x64_0_1_2_3_4 : S16x64x64x1x64.BroadcastsInDim S16x64x64x8x64 (![0, 1, 2, 3, 4] : Fin 5 → Fin S16x64x64x8x64.rank)
  reducesTo_S16x64x64x8x64_S16x8_d1_2_4 : S16x64x64x8x64.ReducesTo [1, 2, 4] S16x8
  bcast_S16x8_S16x1x1x8x1_0_3 : S16x8.BroadcastsInDim S16x1x1x8x1 (![0, 3] : Fin 2 → Fin S16x1x1x8x1.rank)
  shapeCasts_S16x64x64x1x64_S16x64x64x64 : S16x64x64x1x64.ShapeCasts S16x64x64x64

variable [Facts₀]

class Facts : Prop extends Facts₀ where

variable [Facts]
-- ==== Proof.KernelRun.lean ====
/-
  The idealized kernel's run with its result named: every weakly fair execution of @main terminates, nothing faulting,
  with the result array at what the third region's write-backs leave (the last of the boundary contents, `W6`) and the
  argument array as launched.  @main is run as its six segments (three host stretches, three regions) from the launch
  memory; the final state's unscoped buffers hold the last boundary's contents, read here at the result's buffer and at
  the argument's.
-/
import proofs.«137533_j24747601560077_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main, with the result array read off the last boundary's contents. -/
theorem run_result : θ_run defs (onTc (τ := τ) (main (F := F))) ⟨m, fun _ => 0, ρ⟩ (fun r => ∀ c : Dev nD,
      r.2.mem ((c.tc : Thread nD τ).loc main_v25_0) = W6 m ρ c (Proc.devRef .tc main_v25_0)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v25_0 (by decide)), (h c _ (mem_uc main_arg0 (by decide))).trans (W6_main_arg0 m ρ c)⟩)

end Cert.KernelIdeal.Run

end
-- ==== Proof.Routing.lean ====
/-
  The routing recurrence as one function of the input array, on the extended reals.

  The input is read as X b h w q (batch b < 16, row h < 64, column w < 64, lane q < 512); a lane is a pair
  (group g < 8, channel c < 64) at q = 64 g + c.  With logits β b g:
    gate z        = 1 / (1 + exp (-z))
    mix α row c   = Σ_g α g · row (64 g + c)                       (the gated sum over the eight groups)
    agree α X b g = Σ_h Σ_w Σ_c mix (α b) (X b h w) c · X b h w (64 g + c)
    step β        = β + agree (gate ∘ β) X
  and the result is mix (gate ∘ β₂) with β₂ = step (step 0).  Sums over the extended reals form a commutative monoid,
  so every regrouping of them below is an identity with no finiteness side condition.
-/
import Idealize.ShloMosaic.PureOps.Ideal
import Idealize.ShloMosaic.PureOps.Ideal.Laws
import Idealize.ShloMosaic.Lib.ValueIdx

noncomputable section

open scoped BigOperators

namespace Cert.Routing

open Idealize.ShloMosaic Idealize.ShloMosaic.ValueIdx

/-- Lane `64 g + c` of a 512-lane row: channel `c` of group `g`. -/
def lane (g : Fin 8) (c : Fin 64) : Fin 512 := ⟨64 * g.val + c.val, by have := g.isLt; have := c.isLt; omega⟩

@[simp] theorem lane_val (g : Fin 8) (c : Fin 64) : (lane g c).val = 64 * g.val + c.val := rfl

/-- The logistic gate `1 / (1 + exp (-z))`, the literal one kept as its f32 word. -/
def gate (z : EReal) : EReal :=
  Ideal.div (Ideal.ofBits .f32 0x3F800000#32) (Ideal.ofBits .f32 0x3F800000#32 + Ideal.exp (-z))

/-- The gated sum over the eight groups, at channel `c` of one 512-lane row. -/
def mix (α : Fin 8 → EReal) (row : Fin 512 → EReal) (c : Fin 64) : EReal := ∑ g : Fin 8, α g * row (lane g c)

/-- The input array by coordinates. -/
abbrev Arr := Fin 16 → Fin 64 → Fin 64 → Fin 512 → EReal

/-- The agreement of group `g` in batch `b`: the mixed value against the group's own channels, summed over every
    row, column and channel. -/
def agree (α : Fin 16 → Fin 8 → EReal) (X : Arr) (b : Fin 16) (g : Fin 8) : EReal :=
  ∑ h : Fin 64, ∑ w : Fin 64, ∑ c : Fin 64, mix (α b) (X b h w) c * X b h w (lane g c)

/-- One routing iteration on the logits. -/
def step (β : Fin 16 → Fin 8 → EReal) (X : Arr) : Fin 16 → Fin 8 → EReal :=
  fun b g => β b g + agree (fun b' g' => gate (β b' g')) X b g

/-- The logits after the two feedback iterations, from zero. -/
def logits (X : Arr) : Fin 16 → Fin 8 → EReal := step (step (fun _ _ => 0) X) X

/-- The routed output: the gated mix at the final logits. -/
def routed (X : Arr) (b : Fin 16) (h w : Fin 64) (c : Fin 64) : EReal :=
  mix (fun g => gate (logits X b g)) (X b h w) c

/-- The eight products added one after the other onto zero are the gated sum. -/
theorem mix_eq_chain (α : Fin 8 → EReal) (row : Fin 512 → EReal) (c : Fin 64) :
    ((((((((0 : EReal) + α 0 * row (lane 0 c)) + α 1 * row (lane 1 c)) + α 2 * row (lane 2 c)) + α 3 * row (lane 3 c))
      + α 4 * row (lane 4 c)) + α 5 * row (lane 5 c)) + α 6 * row (lane 6 c)) + α 7 * row (lane 7 c) = mix α row c := by
  unfold mix
  rw [Fin.sum_univ_eight, zero_add]

/-- A sum over the 64 rows taken tile by tile: sixteen tiles of four rows. -/
theorem sum_tiles {M : Type*} [AddCommMonoid M] (f : Fin 64 → M) :
    ∑ t : Fin 16, ∑ p : Fin 4, f ⟨4 * t.val + p.val, by have := t.isLt; have := p.isLt; omega⟩ = ∑ h : Fin 64, f h := by
  rw [← Fintype.sum_prod_type (f := fun tp : Fin 16 × Fin 4 => f ⟨4 * tp.1.val + tp.2.val, by have := tp.1.isLt; have := tp.2.isLt; omega⟩)]
  refine Fintype.sum_equiv (finProdFinEquiv (m := 16) (n := 4)) _ _ fun tp => ?_
  refine congrArg f (Fin.ext ?_)
  show 4 * tp.1.val + tp.2.val = tp.2.val + 4 * tp.1.val
  omega

/-- The agreement as the kernel accumulates it: per tile of four rows, then over the sixteen tiles. -/
theorem agree_tiles (α : Fin 16 → Fin 8 → EReal) (X : Arr) (b : Fin 16) (g : Fin 8) :
    ∑ t : Fin 16, ∑ p : Fin 4, ∑ w : Fin 64, ∑ c : Fin 64,
        mix (α b) (X b ⟨4 * t.val + p.val, by have := t.isLt; have := p.isLt; omega⟩ w) c
          * X b ⟨4 * t.val + p.val, by have := t.isLt; have := p.isLt; omega⟩ w (lane g c)
      = agree α X b g :=
  sum_tiles fun h => ∑ w : Fin 64, ∑ c : Fin 64, mix (α b) (X b h w) c * X b h w (lane g c)

end Cert.Routing

end
-- ==== Proof.Layouts.lean ====
/-
  The layout and reduction steps of one tile of the routing kernel, each read at an index.

  A tile is a [16, 4, 64, 512] block of the input (four rows); its eight [16, 4, 64, 64] lane groups are loaded at lane
  offsets 0, 64, …, 448.  The gate weights arrive as a [16, 8] array whose column g is spread over the tile
  ([16,8] -> [16,1] slice -> [16,1,1,1] -> [16,4,64,64]).  The agreement of a tile is three nested lane / column / row
  sums with unit-axis shape casts between them, and the eight per-group columns are joined along axis 1 and stored as
  a [1, 16, 8] block.
-/
import Idealize.ShloMosaic.PureOps.Ideal.Laws
import Idealize.ShloMosaic.Lib.ValueIdx
import Idealize.ShloMosaic.Lib.Pipeline.Value
import proofs.«137533_j24747601560077_1_alg».proof.Proof.Routing

noncomputable section

open scoped BigOperators

namespace Cert.Routing

open Idealize.ShloMosaic Idealize.ShloMosaic.ValueIdx

/-- Column `g` of the [16, 8] gate weights, spread over a [16, 4, 64, 64] lane group, reads the weight of batch `b`. -/
theorem col_apply {α : Type} (a : (⟨2, ![16, 8]⟩ : Shape).Idx → α) (off : Fin 2 → Nat) (g : Fin 8)
    (h0 : off 0 = 0) (h1 : off 1 = g.val)
    (hs : (⟨2, ![16, 8]⟩ : Shape).Slices off ⟨2, ![16, 1]⟩)
    (hc : (⟨2, ![16, 1]⟩ : Shape).ShapeCasts ⟨4, ![16, 1, 1, 1]⟩)
    (hb : (⟨4, ![16, 1, 1, 1]⟩ : Shape).Broadcasts ⟨4, ![16, 4, 64, 64]⟩)
    (b : Fin 16) (p : Fin 4) (w c : Fin 64) :
    broadcastTo ⟨4, ![16, 4, 64, 64]⟩ (shapeCast ⟨4, ![16, 1, 1, 1]⟩ (extractStridedSlice ⟨2, ![16, 1]⟩ off a hs) hc) hb (ix4 b p w c)
      = a (ix2 b g) := by
  refine (broadcastTo_apply _ hb (ix4 b p w c) (ix4 b 0 0 0) fun d => ?_).trans ?_
  · match d with
    | ⟨0, _⟩ => show b.val = if (16 : Nat) = 1 then 0 else b.val; rw [if_neg (by decide)]
    | ⟨1, _⟩ => show 0 = if (1 : Nat) = 1 then 0 else p.val; rw [if_pos rfl]
    | ⟨2, _⟩ => show 0 = if (1 : Nat) = 1 then 0 else w.val; rw [if_pos rfl]
    | ⟨3, _⟩ => show 0 = if (1 : Nat) = 1 then 0 else c.val; rw [if_pos rfl]
  refine (shapeCast_apply _ hc (ix4 b 0 0 0) (ix2 b 0) ?_).trans ?_
  · rw [Shape.rowMajor_val_two, Shape.rowMajor_val_four]
    show b.val * 1 + 0 = ((b.val * 1 + 0) * 1 + 0) * 1 + 0
    omega
  exact extractStridedSlice_apply off a hs (ix2 b 0) (ix2 b g) fun d => by
    match d with
    | ⟨0, _⟩ => show b.val = off 0 + b.val; omega
    | ⟨1, _⟩ => show g.val = off 1 + 0; omega

/-- A load of lane group `g` of a tile, at lane offset `64 g`, reads the tile's lane `64 g + c`. -/
theorem ld_lane {α : Type} (x : (⟨4, ![16, 4, 64, 512]⟩ : Shape).Idx → α) (off : Fin 4 → Nat) (g : Fin 8)
    (h0 : off 0 = 0) (h1 : off 1 = 0) (h2 : off 2 = 0) (h3 : off 3 = 64 * g.val)
    (inb : ∀ a, off a + (⟨4, ![16, 4, 64, 64]⟩ : Shape).size a ≤ (⟨4, ![16, 4, 64, 512]⟩ : Shape).size a)
    (b : Fin 16) (p : Fin 4) (w c : Fin 64) :
    (Rect.unit (s := ⟨4, ![16, 4, 64, 512]⟩) off (⟨4, ![16, 4, 64, 64]⟩ : Shape).size inb).idx (ix4 b p w c)
      = ix4 b p w (lane g c) := by
  funext d
  apply Fin.ext
  match d with
  | ⟨0, _⟩ => show off 0 + 1 * b.val = b.val; omega
  | ⟨1, _⟩ => show off 1 + 1 * p.val = p.val; omega
  | ⟨2, _⟩ => show off 2 + 1 * w.val = w.val; omega
  | ⟨3, _⟩ => show off 3 + 1 * c.val = 64 * g.val + c.val; omega

/-- The lane sum then the column sum of a [16, 4, 64, 64] array, read at row `p` of batch `b`. -/
theorem rowSum_apply (z : FVec Ideal ⟨4, ![16, 4, 64, 64]⟩ .f32)
    (h3 : (⟨4, ![16, 4, 64, 64]⟩ : Shape).Reduces [3] ⟨3, ![16, 4, 64]⟩)
    (hc : (⟨3, ![16, 4, 64]⟩ : Shape).ShapeCasts ⟨4, ![16, 4, 64, 1]⟩)
    (h2 : (⟨4, ![16, 4, 64, 1]⟩ : Shape).Reduces [2] ⟨3, ![16, 4, 1]⟩)
    (hφ hφ' : FKind.Formats .f32) (hacc : (0x00000000#32 : BitVec 32) = FKind.add.neutral .f32 hφ)
    (hacc' : (0x00000000#32 : BitVec 32) = FKind.add.neutral .f32 hφ') (b : Fin 16) (p : Fin 4) :
    multiReduction .add [2] ⟨3, ![16, 4, 1]⟩
        (shapeCast ⟨4, ![16, 4, 64, 1]⟩ (multiReduction .add [3] ⟨3, ![16, 4, 64]⟩ z 0x00000000#32 h3 hφ hacc) hc)
        0x00000000#32 h2 hφ' hacc' (ix3 b p 0)
      = ∑ w : Fin 64, ∑ c : Fin 64, z (ix4 b p w c) := by
  refine (Ideal.multiReduction_add_single _ _ h2 hφ' hacc' (ix3 b p 0)).trans ?_
  refine Finset.sum_congr rfl fun w _ => ?_
  have e : h2.lift (ix3 b p 0) w = ix4 b p w 0 :=
    funext fun d => Fin.ext (by match d with | ⟨0, _⟩ => rfl | ⟨1, _⟩ => rfl | ⟨2, _⟩ => rfl | ⟨3, _⟩ => rfl)
  rw [e]
  refine (shapeCast_apply _ hc (ix4 b p w 0) (ix3 b p w) ?_).trans ?_
  · rw [Shape.rowMajor_val_three, Shape.rowMajor_val_four]
    show (b.val * 4 + p.val) * 64 + w.val = ((b.val * 4 + p.val) * 64 + w.val) * 1 + 0
    omega
  refine (Ideal.multiReduction_add_single z _ h3 hφ hacc (ix3 b p w)).trans ?_
  refine Finset.sum_congr rfl fun c _ => congrArg z ?_
  exact funext fun d => Fin.ext (by match d with | ⟨0, _⟩ => rfl | ⟨1, _⟩ => rfl | ⟨2, _⟩ => rfl | ⟨3, _⟩ => rfl)

/-- The sum over the four rows of a tile of a [16, 4, 1] array of row totals, brought back to a [16, 1] column. -/
theorem tileSum_apply (v : FVec Ideal ⟨3, ![16, 4, 1]⟩ .f32)
    (hc1 : (⟨3, ![16, 4, 1]⟩ : Shape).ShapeCasts ⟨4, ![16, 4, 1, 1]⟩)
    (h1 : (⟨4, ![16, 4, 1, 1]⟩ : Shape).Reduces [1] ⟨3, ![16, 1, 1]⟩)
    (hc2 : (⟨3, ![16, 1, 1]⟩ : Shape).ShapeCasts ⟨4, ![16, 1, 1, 1]⟩)
    (hc3 : (⟨4, ![16, 1, 1, 1]⟩ : Shape).ShapeCasts ⟨2, ![16, 1]⟩)
    (hφ : FKind.Formats .f32) (hacc : (0x00000000#32 : BitVec 32) = FKind.add.neutral .f32 hφ) (b : Fin 16) :
    shapeCast ⟨2, ![16, 1]⟩ (shapeCast ⟨4, ![16, 1, 1, 1]⟩
        (multiReduction .add [1] ⟨3, ![16, 1, 1]⟩ (shapeCast ⟨4, ![16, 4, 1, 1]⟩ v hc1) 0x00000000#32 h1 hφ hacc) hc2) hc3 (ix2 b 0)
      = ∑ p : Fin 4, v (ix3 b p 0) := by
  refine (shapeCast_apply _ hc3 (ix2 b 0) (ix4 b 0 0 0) ?_).trans ?_
  · rw [Shape.rowMajor_val_two, Shape.rowMajor_val_four]
    show ((b.val * 1 + 0) * 1 + 0) * 1 + 0 = b.val * 1 + 0
    omega
  refine (shapeCast_apply _ hc2 (ix4 b 0 0 0) (ix3 b 0 0) ?_).trans ?_
  · rw [Shape.rowMajor_val_three, Shape.rowMajor_val_four]
    show (b.val * 1 + 0) * 1 + 0 = ((b.val * 1 + 0) * 1 + 0) * 1 + 0
    omega
  refine (Ideal.multiReduction_add_single _ _ h1 hφ hacc (ix3 b 0 0)).trans ?_
  refine Finset.sum_congr rfl fun p _ => ?_
  have e : h1.lift (ix3 b 0 0) p = ix4 b p 0 0 :=
    funext fun d => Fin.ext (by match d with | ⟨0, _⟩ => rfl | ⟨1, _⟩ => rfl | ⟨2, _⟩ => rfl | ⟨3, _⟩ => rfl)
  rw [e]
  refine shapeCast_apply _ hc1 (ix4 b p 0 0) (ix3 b p 0) ?_
  rw [Shape.rowMajor_val_three, Shape.rowMajor_val_four]
  show (b.val * 4 + p.val) * 1 + 0 = ((b.val * 4 + p.val) * 1 + 0) * 1 + 0
  omega

/-- The whole agreement of a tile for one lane group: the three sums of a [16, 4, 64, 64] array at batch `b`. -/
theorem planeSum_apply (z : FVec Ideal ⟨4, ![16, 4, 64, 64]⟩ .f32)
    (h3 : (⟨4, ![16, 4, 64, 64]⟩ : Shape).Reduces [3] ⟨3, ![16, 4, 64]⟩)
    (hc : (⟨3, ![16, 4, 64]⟩ : Shape).ShapeCasts ⟨4, ![16, 4, 64, 1]⟩)
    (h2 : (⟨4, ![16, 4, 64, 1]⟩ : Shape).Reduces [2] ⟨3, ![16, 4, 1]⟩)
    (hc1 : (⟨3, ![16, 4, 1]⟩ : Shape).ShapeCasts ⟨4, ![16, 4, 1, 1]⟩)
    (h1 : (⟨4, ![16, 4, 1, 1]⟩ : Shape).Reduces [1] ⟨3, ![16, 1, 1]⟩)
    (hc2 : (⟨3, ![16, 1, 1]⟩ : Shape).ShapeCasts ⟨4, ![16, 1, 1, 1]⟩)
    (hc3 : (⟨4, ![16, 1, 1, 1]⟩ : Shape).ShapeCasts ⟨2, ![16, 1]⟩)
    (hφ hφ' hφ'' : FKind.Formats .f32) (hacc : (0x00000000#32 : BitVec 32) = FKind.add.neutral .f32 hφ)
    (hacc' : (0x00000000#32 : BitVec 32) = FKind.add.neutral .f32 hφ')
    (hacc'' : (0x00000000#32 : BitVec 32) = FKind.add.neutral .f32 hφ'') (b : Fin 16) :
    shapeCast ⟨2, ![16, 1]⟩ (shapeCast ⟨4, ![16, 1, 1, 1]⟩
        (multiReduction .add [1] ⟨3, ![16, 1, 1]⟩ (shapeCast ⟨4, ![16, 4, 1, 1]⟩
          (multiReduction .add [2] ⟨3, ![16, 4, 1]⟩
            (shapeCast ⟨4, ![16, 4, 64, 1]⟩ (multiReduction .add [3] ⟨3, ![16, 4, 64]⟩ z 0x00000000#32 h3 hφ hacc) hc)
            0x00000000#32 h2 hφ' hacc') hc1) 0x00000000#32 h1 hφ'' hacc'') hc2) hc3 (ix2 b 0)
      = ∑ p : Fin 4, ∑ w : Fin 64, ∑ c : Fin 64, z (ix4 b p w c) := by
  refine (tileSum_apply _ hc1 h1 hc2 hc3 hφ'' hacc'' b).trans ?_
  exact Finset.sum_congr rfl fun p _ => rowSum_apply z h3 hc h2 hφ hφ' hacc hacc' b p

/-- Eight [16, 1] columns joined along axis 1 and stored as a [1, 16, 8] block: entry (0, b, g) is column `g` at `b`. -/
theorem concat8_apply {α : Type} (v0 v1 v2 v3 v4 v5 v6 v7 : (⟨2, ![16, 1]⟩ : Shape).Idx → α)
    (h : Shape.Concatenates (([⟨⟨2, ![16, 1]⟩, v0⟩, ⟨⟨2, ![16, 1]⟩, v1⟩, ⟨⟨2, ![16, 1]⟩, v2⟩, ⟨⟨2, ![16, 1]⟩, v3⟩,
        ⟨⟨2, ![16, 1]⟩, v4⟩, ⟨⟨2, ![16, 1]⟩, v5⟩, ⟨⟨2, ![16, 1]⟩, v6⟩, ⟨⟨2, ![16, 1]⟩, v7⟩] :
          List ((s : Shape) × (s.Idx → α))).map (·.1)) ⟨2, ![16, 8]⟩ 1)
    (hc : (⟨2, ![16, 8]⟩ : Shape).ShapeCasts ⟨3, ![1, 16, 8]⟩) (b : Fin 16) (g : Fin 8) :
    shapeCast ⟨3, ![1, 16, 8]⟩ (concatenate ⟨2, ![16, 8]⟩ 1 [⟨⟨2, ![16, 1]⟩, v0⟩, ⟨⟨2, ![16, 1]⟩, v1⟩, ⟨⟨2, ![16, 1]⟩, v2⟩,
        ⟨⟨2, ![16, 1]⟩, v3⟩, ⟨⟨2, ![16, 1]⟩, v4⟩, ⟨⟨2, ![16, 1]⟩, v5⟩, ⟨⟨2, ![16, 1]⟩, v6⟩, ⟨⟨2, ![16, 1]⟩, v7⟩] h) hc (ix3 0 b g)
      = (![v0, v1, v2, v3, v4, v5, v6, v7] g) (ix2 b 0) := by
  refine (shapeCast_apply _ hc (ix3 0 b g) (ix2 b g) ?_).trans ?_
  · rw [Shape.rowMajor_val_two, Shape.rowMajor_val_three]
    show b.val * 8 + g.val = (0 * 16 + b.val) * 8 + g.val
    omega
  have hi : ∀ d : Fin 2, d.cast (rfl : (2 : Nat) = 2) ≠ (1 : Fin 2) → ((ix2 b (0 : Fin 1)) d).val = ((ix2 b g) (d.cast rfl)).val := by
    intro d hd
    match d with
    | ⟨0, _⟩ => rfl
    | ⟨1, _⟩ => exact absurd rfl hd
  fin_cases g
  · exact concatenate_apply_piece 1 _ h (ix2 b 0) 0 (by simp) _ v0 rfl rfl 0 rfl (ix2 b 0) hi rfl
  · exact concatenate_apply_piece 1 _ h (ix2 b 1) 1 (by simp) _ v1 rfl rfl 1 rfl (ix2 b 0) hi rfl
  · exact concatenate_apply_piece 1 _ h (ix2 b 2) 2 (by simp) _ v2 rfl rfl 2 rfl (ix2 b 0) hi rfl
  · exact concatenate_apply_piece 1 _ h (ix2 b 3) 3 (by simp) _ v3 rfl rfl 3 rfl (ix2 b 0) hi rfl
  · exact concatenate_apply_piece 1 _ h (ix2 b 4) 4 (by simp) _ v4 rfl rfl 4 rfl (ix2 b 0) hi rfl
  · exact concatenate_apply_piece 1 _ h (ix2 b 5) 5 (by simp) _ v5 rfl rfl 5 rfl (ix2 b 0) hi rfl
  · exact concatenate_apply_piece 1 _ h (ix2 b 6) 6 (by simp) _ v6 rfl rfl 6 rfl (ix2 b 0) hi rfl
  · exact concatenate_apply_piece 1 _ h (ix2 b 7) 7 (by simp) _ v7 rfl rfl 7 rfl (ix2 b 0) hi rfl

end Cert.Routing

end
-- ==== Proof.Body.lean ====
/-
  One tile of the routing kernel, read at an index: what a grid point leaves in its two output blocks as functions of the
  gate weights (a [16, 8] array) and of the point's [16, 4, 64, 512] tile of the input.

  The mixed block at (b, p, w, c) is the gated sum over the eight lane groups of the tile's row (b, p, w); the agreement
  block at (0, b, g) is the sum over the tile's four rows, its columns and channels of the mixed value times the tile at
  lane 64 g + c.
-/
import proofs.«137533_j24747601560077_1_alg».proof.Proof.Gen.KernelIdeal.Frame
import proofs.«137533_j24747601560077_1_alg».proof.Proof.Layouts

noncomputable section

open scoped BigOperators

namespace Cert.KernelIdeal.Tile

open Cert.KernelIdeal Cert.KernelIdeal.Gen Cert.Routing Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The mixed value of a tile at (b, p, w, c). -/
def tileMix (x0 : S16x8.Idx → EReal) (x1 : S16x4x64x512.Idx → EReal) (b : Fin 16) (p : Fin 4) (w c : Fin 64) : EReal :=
  mix (fun g => x0 (ix2 b g)) (fun q => x1 (ix4 b p w q)) c

/-- The agreement a tile contributes to group `g` of batch `b`. -/
def tileAgree (x0 : S16x8.Idx → EReal) (x1 : S16x4x64x512.Idx → EReal) (b : Fin 16) (g : Fin 8) : EReal :=
  ∑ p : Fin 4, ∑ w : Fin 64, ∑ c : Fin 64, tileMix x0 x1 b p w c * x1 (ix4 b p w (lane g c))

/-- The eight weighted lane groups added in order, at an index. -/
theorem mixPay_apply (a : S16x8.Idx → EReal) (y0 y1 y2 y3 y4 y5 y6 y7 : S16x4x64x64.Idx → EReal)
    (b : Fin 16) (p : Fin 4) (w c : Fin 64) :
    k0_pay5 (F := Ideal) (k0_pay2 a) (k0_pay3 a y0 y1 y2 y3 y4) (k0_pay4 a) y5 y6 y7 (ix4 b p w c)
      = ((((((((0 : EReal) + a (ix2 b 0) * y0 (ix4 b p w c)) + a (ix2 b 1) * y1 (ix4 b p w c)) + a (ix2 b 2) * y2 (ix4 b p w c))
          + a (ix2 b 3) * y3 (ix4 b p w c)) + a (ix2 b 4) * y4 (ix4 b p w c)) + a (ix2 b 5) * y5 (ix4 b p w c))
          + a (ix2 b 6) * y6 (ix4 b p w c)) + a (ix2 b 7) * y7 (ix4 b p w c) := by
  unfold k0_pay5 k0_pay3 k0_pay4 k0_pay2
  simp only [addf_apply, mulf_apply, broadcast_apply, shapeCast_self]
  rw [col_apply a ![0, 0] 0 rfl rfl, col_apply a ![0, 1] 1 rfl rfl, col_apply a ![0, 2] 2 rfl rfl,
    col_apply a ![0, 3] 3 rfl rfl, col_apply a ![0, 4] 4 rfl rfl, col_apply a ![0, 5] 5 rfl rfl,
    col_apply a ![0, 6] 6 rfl rfl, col_apply a ![0, 7] 7 rfl rfl]
  rw [show Scalar.ofBits (F := Ideal) .f32 0x00000000#32 = (0 : EReal) from Ideal.ofBits_zero_f32]

/-- The first group's agreement column: the three sums of the mixed block times the group's lanes. -/
theorem pay6_apply (v1 : S16x8.Idx → EReal) (v32 : S16x4x64x64.Idx → EReal) (v34 : S16x1x1x1.Idx → EReal)
    (v35 v41 v47 y : S16x4x64x64.Idx → EReal) (b : Fin 16) :
    k0_pay6 (F := Ideal) v1 v32 v34 v35 v41 v47 y (ix2 b 0)
      = ∑ p : Fin 4, ∑ w : Fin 64, ∑ c : Fin 64, k0_pay5 (F := Ideal) v1 v32 v34 v35 v41 v47 (ix4 b p w c) * y (ix4 b p w c) := by
  unfold k0_pay6
  exact planeSum_apply (mulf (k0_pay5 (F := Ideal) v1 v32 v34 v35 v41 v47) y) _ _ _ _ _ _ _ _ _ _ _ _ _ b

/-- The second group's column, its sums cut in two by the printed program. -/
theorem pay78_apply (v1 : S16x8.Idx → EReal) (v32 : S16x4x64x64.Idx → EReal) (v34 : S16x1x1x1.Idx → EReal)
    (v35 v41 v47 y : S16x4x64x64.Idx → EReal) (b : Fin 16) :
    k0_pay8 (F := Ideal) (k0_pay7 v1 v32 v34 v35 v41 v47 y) (ix2 b 0)
      = ∑ p : Fin 4, ∑ w : Fin 64, ∑ c : Fin 64, k0_pay5 (F := Ideal) v1 v32 v34 v35 v41 v47 (ix4 b p w c) * y (ix4 b p w c) := by
  unfold k0_pay8 k0_pay7
  exact planeSum_apply (mulf (k0_pay5 (F := Ideal) v1 v32 v34 v35 v41 v47) y) _ _ _ _ _ _ _ _ _ _ _ _ _ b

theorem pay9_apply (v y : S16x4x64x64.Idx → EReal) (b : Fin 16) :
    k0_pay9 (F := Ideal) v y (ix2 b 0) = ∑ p : Fin 4, ∑ w : Fin 64, ∑ c : Fin 64, v (ix4 b p w c) * y (ix4 b p w c) := by
  unfold k0_pay9
  exact planeSum_apply (mulf v y) _ _ _ _ _ _ _ _ _ _ _ _ _ b

theorem pay10_apply (v y : S16x4x64x64.Idx → EReal) (b : Fin 16) :
    k0_pay10 (F := Ideal) v y (ix2 b 0) = ∑ p : Fin 4, ∑ w : Fin 64, ∑ c : Fin 64, v (ix4 b p w c) * y (ix4 b p w c) := by
  unfold k0_pay10
  exact planeSum_apply (mulf v y) _ _ _ _ _ _ _ _ _ _ _ _ _ b

theorem pay11_apply (v y : S16x4x64x64.Idx → EReal) (b : Fin 16) :
    k0_pay11 (F := Ideal) v y (ix2 b 0) = ∑ p : Fin 4, ∑ w : Fin 64, ∑ c : Fin 64, v (ix4 b p w c) * y (ix4 b p w c) := by
  unfold k0_pay11
  exact planeSum_apply (mulf v y) _ _ _ _ _ _ _ _ _ _ _ _ _ b

/-- The agreement block of a tile at (0, b, g): the mixed block against lane group `g`, summed over the tile. -/
theorem agreePay_apply (A : S16x8.Idx → EReal) (L0 L1 L2 L3 L4 L5 L6 L7 : S16x4x64x64.Idx → EReal) (b : Fin 16) (g : Fin 8) :
    k0_pay1 (F := Ideal) (k0_pay5 (F := Ideal) (k0_pay2 A) (k0_pay3 A L0 L1 L2 L3 L4) (k0_pay4 A) L5 L6 L7)
        (k0_pay6 (k0_pay2 A) (k0_pay3 A L0 L1 L2 L3 L4) (k0_pay4 A) L5 L6 L7 L0)
        (k0_pay8 (k0_pay7 (k0_pay2 A) (k0_pay3 A L0 L1 L2 L3 L4) (k0_pay4 A) L5 L6 L7 L1))
        (k0_pay9 (k0_pay5 (F := Ideal) (k0_pay2 A) (k0_pay3 A L0 L1 L2 L3 L4) (k0_pay4 A) L5 L6 L7) L2) (k0_pay10 (k0_pay5 (F := Ideal) (k0_pay2 A) (k0_pay3 A L0 L1 L2 L3 L4) (k0_pay4 A) L5 L6 L7) L3) (k0_pay11 (k0_pay5 (F := Ideal) (k0_pay2 A) (k0_pay3 A L0 L1 L2 L3 L4) (k0_pay4 A) L5 L6 L7) L4) (k0_pay12 (k0_pay5 (F := Ideal) (k0_pay2 A) (k0_pay3 A L0 L1 L2 L3 L4) (k0_pay4 A) L5 L6 L7) L5) L6 L7 (ix3 0 b g)
      = ∑ p : Fin 4, ∑ w : Fin 64, ∑ c : Fin 64,
          (k0_pay5 (F := Ideal) (k0_pay2 A) (k0_pay3 A L0 L1 L2 L3 L4) (k0_pay4 A) L5 L6 L7) (ix4 b p w c) * (![L0, L1, L2, L3, L4, L5, L6, L7] g) (ix4 b p w c) := by
  unfold k0_pay1
  refine (concat8_apply _ _ _ _ _ _ _ _ _ _ b g).trans ?_
  fin_cases g
  · exact pay6_apply _ _ _ _ _ _ L0 b
  · exact pay78_apply _ _ _ _ _ _ L1 b
  · exact pay9_apply _ L2 b
  · exact pay10_apply _ L3 b
  · exact pay11_apply _ L4 b
  · refine (planeSum_apply (k0_pay12 (k0_pay5 (F := Ideal) (k0_pay2 A) (k0_pay3 A L0 L1 L2 L3 L4) (k0_pay4 A) L5 L6 L7) L5) _ _ _ _ _ _ _ (.inl rfl) (.inl rfl) (.inl rfl) rfl rfl rfl b).trans ?_
    rfl
  · refine (planeSum_apply (mulf (k0_pay5 (F := Ideal) (k0_pay2 A) (k0_pay3 A L0 L1 L2 L3 L4) (k0_pay4 A) L5 L6 L7) L6) _ _ _ _ _ _ _ (.inl rfl) (.inl rfl) (.inl rfl) rfl rfl rfl b).trans ?_
    rfl
  · refine (planeSum_apply (mulf (k0_pay5 (F := Ideal) (k0_pay2 A) (k0_pay3 A L0 L1 L2 L3 L4) (k0_pay4 A) L5 L6 L7) L7) _ _ _ _ _ _ _ (.inl rfl) (.inl rfl) (.inl rfl) rfl rfl rfl b).trans ?_
    rfl

/-- A load of lane group `g` of the tile, at an index. -/
theorem ld_at (x1 : Vec Ideal S16x4x64x512 .f32) (off : Fin 4 → Nat) (g : Fin 8)
    (h0 : off 0 = 0) (h1 : off 1 = 0) (h2 : off 2 = 0) (h3 : off 3 = 64 * g.val)
    (inb : ∀ a, off a + S16x4x64x64.size a ≤ S16x4x64x512.size a) (b : Fin 16) (p : Fin 4) (w c : Fin 64) :
    (View.ld x1 (Rect.unit (s := S16x4x64x512) off S16x4x64x64.size inb) (ix4 b p w c) : EReal) = x1 (ix4 b p w (lane g c)) :=
  congrArg x1 (ld_lane x1 off g h0 h1 h2 h3 inb b p w c)

/-- The mixed block of a tile at an index, from the weights and the tile. -/
theorem mixBlock_apply (x0 : Vec Ideal S16x8 .f32) (x1 : Vec Ideal S16x4x64x512 .f32) (b : Fin 16) (p : Fin 4) (w c : Fin 64) :
    k0_pay5 (F := Ideal) (k0_pay2 x0) (k0_pay3 x0 (View.ld x1 r0_1) (View.ld x1 r0_2) (View.ld x1 r0_3) (View.ld x1 r0_4) (View.ld x1 r0_5))
        (k0_pay4 x0) (View.ld x1 r0_6) (View.ld x1 r0_7) (View.ld x1 r0_8) (ix4 b p w c)
      = tileMix x0 x1 b p w c := by
  refine (mixPay_apply x0 _ _ _ _ _ _ _ _ b p w c).trans ?_
  rw [ld_at x1 ![0, 0, 0, 0] 0 rfl rfl rfl rfl, ld_at x1 ![0, 0, 0, 64] 1 rfl rfl rfl rfl, ld_at x1 ![0, 0, 0, 128] 2 rfl rfl rfl rfl,
    ld_at x1 ![0, 0, 0, 192] 3 rfl rfl rfl rfl, ld_at x1 ![0, 0, 0, 256] 4 rfl rfl rfl rfl, ld_at x1 ![0, 0, 0, 320] 5 rfl rfl rfl rfl,
    ld_at x1 ![0, 0, 0, 384] 6 rfl rfl rfl rfl, ld_at x1 ![0, 0, 0, 448] 7 rfl rfl rfl rfl]
  exact mix_eq_chain (fun g => x0 (ix2 b g)) (fun q => x1 (ix4 b p w q)) c

/-- What a grid point leaves in the mixed output block, at an index. -/
theorem out0_2_apply (x0 : Vec Ideal S16x8 .f32) (x1 : Vec Ideal S16x4x64x512 .f32) (b : Fin 16) (p : Fin 4) (w c : Fin 64) :
    out0_2 (F := Ideal) x0 x1 (ix4 b p w c) = tileMix x0 x1 b p w c := by
  unfold out0_2
  rw [View.canon_unit_zero hz4]
  simp only [View.ld_unit_zero (S := S16x8) hz2]
  exact mixBlock_apply x0 x1 b p w c

/-- What a grid point leaves in the agreement output block, at (0, b, g). -/
theorem out0_3_apply (x0 : Vec Ideal S16x8 .f32) (x1 : Vec Ideal S16x4x64x512 .f32) (b : Fin 16) (g : Fin 8) :
    out0_3 (F := Ideal) x0 x1 (ix3 0 b g) = tileAgree x0 x1 b g := by
  unfold out0_3
  rw [View.canon_unit_zero hz3]
  simp only [View.ld_unit_zero (S := S16x8) hz2]
  refine (agreePay_apply x0 _ _ _ _ _ _ _ _ b g).trans ?_
  unfold tileAgree
  refine Finset.sum_congr rfl fun p _ => Finset.sum_congr rfl fun w _ => Finset.sum_congr rfl fun c _ => ?_
  refine congr (congrArg _ (mixBlock_apply x0 x1 b p w c)) ?_
  fin_cases g
  · exact ld_at x1 ![0, 0, 0, 0] 0 rfl rfl rfl rfl _ b p w c
  · exact ld_at x1 ![0, 0, 0, 64] 1 rfl rfl rfl rfl _ b p w c
  · exact ld_at x1 ![0, 0, 0, 128] 2 rfl rfl rfl rfl _ b p w c
  · exact ld_at x1 ![0, 0, 0, 192] 3 rfl rfl rfl rfl _ b p w c
  · exact ld_at x1 ![0, 0, 0, 256] 4 rfl rfl rfl rfl _ b p w c
  · exact ld_at x1 ![0, 0, 0, 320] 5 rfl rfl rfl rfl _ b p w c
  · exact ld_at x1 ![0, 0, 0, 384] 6 rfl rfl rfl rfl _ b p w c
  · exact ld_at x1 ![0, 0, 0, 448] 7 rfl rfl rfl rfl _ b p w c

/-- The three launches run one kernel: the later regions' blocks are the first region's functions. -/
theorem out1_3_eq (x0 : Vec Ideal S16x8 .f32) (x1 : Vec Ideal S16x4x64x512 .f32) :
    out1_3 (F := Ideal) x0 x1 = out0_3 (F := Ideal) x0 x1 := rfl

theorem out2_2_eq (x0 : Vec Ideal S16x8 .f32) (x1 : Vec Ideal S16x4x64x512 .f32) :
    out2_2 (F := Ideal) x0 x1 = out0_2 (F := Ideal) x0 x1 := rfl

end Cert.KernelIdeal.Tile

end
-- ==== Proof.Tiles.lean ====
/-
  The arrays of the routing computation as functions of the input array: the per-tile agreement partials (a
  [16, 16, 8] array: tile, batch, group), whose sum over the tiles is the agreement, and the mixed output (a
  [16, 64, 64, 64] array).  Tile `t` holds rows 4 t … 4 t + 3.
-/
import Idealize.ShloMosaic.Lib.ValueIdx
import proofs.«137533_j24747601560077_1_alg».proof.Proof.Routing

noncomputable section

open scoped BigOperators

namespace Cert.Routing

open Idealize.ShloMosaic Idealize.ShloMosaic.ValueIdx

/-- The input array by coordinates. -/
def arrOf (x : (⟨4, ![16, 64, 64, 512]⟩ : Shape).Idx → EReal) : Arr := fun b h w q => x (ix4 b h w q)

/-- A [16, 8] array of per-batch, per-group values by coordinates. -/
def wOf (α : (⟨2, ![16, 8]⟩ : Shape).Idx → EReal) : Fin 16 → Fin 8 → EReal := fun b g => α (ix2 b g)

/-- Row `p` of tile `t`. -/
def rowOf (t : Fin 16) (p : Fin 4) : Fin 64 := ⟨4 * t.val + p.val, by have := t.isLt; have := p.isLt; omega⟩

@[simp] theorem rowOf_val (t : Fin 16) (p : Fin 4) : (rowOf t p).val = 4 * t.val + p.val := rfl

/-- Tile `t`'s share of the agreement of group `g` in batch `b`. -/
def partialAt (α : Fin 16 → Fin 8 → EReal) (X : Arr) (t b : Fin 16) (g : Fin 8) : EReal :=
  ∑ p : Fin 4, ∑ w : Fin 64, ∑ c : Fin 64, mix (α b) (X b (rowOf t p) w) c * X b (rowOf t p) w (lane g c)

/-- The shares of the sixteen tiles add up to the agreement. -/
theorem sum_partialAt (α : Fin 16 → Fin 8 → EReal) (X : Arr) (b : Fin 16) (g : Fin 8) :
    ∑ t : Fin 16, partialAt α X t b g = agree α X b g := agree_tiles α X b g

/-- The [16, 16, 8] array of partial agreements a launch writes: entry (t, b, g). -/
def partials (α : (⟨2, ![16, 8]⟩ : Shape).Idx → EReal) (x : (⟨4, ![16, 64, 64, 512]⟩ : Shape).Idx → EReal) :
    (⟨3, ![16, 16, 8]⟩ : Shape).Idx → EReal :=
  fun i => partialAt (wOf α) (arrOf x) (i 0) (i 1) (i 2)

/-- The [16, 64, 64, 64] mixed array a launch writes: entry (b, h, w, c). -/
def mixed (α : (⟨2, ![16, 8]⟩ : Shape).Idx → EReal) (x : (⟨4, ![16, 64, 64, 512]⟩ : Shape).Idx → EReal) :
    (⟨4, ![16, 64, 64, 64]⟩ : Shape).Idx → EReal :=
  fun i => mix (wOf α (i 0)) (arrOf x (i 0) (i 1) (i 2)) (i 3)

/-- The routed output as a [16, 64, 64, 64] array of the input array. -/
def routedArr (x : (⟨4, ![16, 64, 64, 512]⟩ : Shape).Idx → EReal) : (⟨4, ![16, 64, 64, 64]⟩ : Shape).Idx → EReal :=
  fun i => routed (arrOf x) (i 0) (i 1) (i 2) (i 3)

end Cert.Routing

end
-- ==== Proof.Region0.lean ====
/-
  Region 0 of @main (the first launch of the routing kernel) read as a value: from the contents `V` the region is
  entered with, its agreement output array ends holding the per-tile partials of the gate weights array and the input
  array.  Grid point `t` stages the whole weights array, tile `t` of the input (rows 4 t … 4 t + 3) and writes back
  block `t` of the [16, 16, 8] partials; the sixteen blocks tile that array.
-/
import proofs.«137533_j24747601560077_1_alg».proof.Proof.Body
import proofs.«137533_j24747601560077_1_alg».proof.Proof.Tiles
import Idealize.ShloMosaic.Lib.Pipeline.Value

set_option maxRecDepth 16384

noncomputable section

open scoped BigOperators

namespace Cert.KernelIdeal.Region0

open Cert.KernelIdeal Cert.KernelIdeal.Gen Cert.KernelIdeal.Tile Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the weights window stays, the input window and the partials window move with
    the point along their tiled axis. -/
theorem idx_facts : ∀ t : Fin cfg0.N,
    win0_0.index t (0 : Fin 2) = 0 ∧ win0_0.index t (1 : Fin 2) = 0
    ∧ win0_1.index t (0 : Fin 4) = 0 ∧ win0_1.index t (1 : Fin 4) = t.val ∧ win0_1.index t (2 : Fin 4) = 0 ∧ win0_1.index t (3 : Fin 4) = 0
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 16 := lt_of_lt_of_eq t.isLt (show cfg0.N = 16 from N_0)

/-- The weights window's block at any point is the whole weights array. -/
theorem iblk_0_apply (c : Dev nD) (t : Fin cfg0.N) (b : Fin 16) (g : Fin 8) :
    (iblk0 V c 0 t : S16x8.Idx → EReal) (ix2 b g) = (V c main_v6 : S16x8.Idx → EReal) (ix2 b g) := by
  obtain ⟨e0, e1, -⟩ := idx_facts t
  show (V c main_v6 : S16x8.Idx → EReal) (((cfg0.win 0).blk t).view.emb (ix2 b g)) = _
  refine congrArg (V c main_v6 : S16x8.Idx → EReal) ?_
  funext a
  apply Fin.ext
  match a with
  | ⟨0, _⟩ => show win0_0.index t (0 : Fin 2) * 16 + 1 * b.val = b.val; omega
  | ⟨1, _⟩ => show win0_0.index t (1 : Fin 2) * 8 + 1 * g.val = g.val; omega

/-- The input window's block at point `t` is rows 4 t … 4 t + 3 of the input array. -/
theorem iblk_1_apply (c : Dev nD) (t : Fin cfg0.N) (b : Fin 16) (p : Fin 4) (w : Fin 64) (q : Fin 512) :
    (iblk0 V c 1 t : S16x4x64x512.Idx → EReal) (ix4 b p w q)
      = (V c main_arg0 : S16x64x64x512.Idx → EReal) (ix4 b (rowOf ⟨t.val, t_lt t⟩ p) w q) := by
  obtain ⟨-, -, e0, e1, e2, e3, -⟩ := idx_facts t
  show (V c main_arg0 : S16x64x64x512.Idx → EReal) (((cfg0.win 1).blk t).view.emb (ix4 b p w q)) = _
  refine congrArg (V c main_arg0 : S16x64x64x512.Idx → EReal) ?_
  funext a
  apply Fin.ext
  match a with
  | ⟨0, _⟩ => show win0_1.index t (0 : Fin 4) * 16 + 1 * b.val = b.val; omega
  | ⟨1, _⟩ => show win0_1.index t (1 : Fin 4) * 4 + 1 * p.val = 4 * t.val + p.val; omega
  | ⟨2, _⟩ => show win0_1.index t (2 : Fin 4) * 64 + 1 * w.val = w.val; omega
  | ⟨3, _⟩ => show win0_1.index t (3 : Fin 4) * 512 + 1 * q.val = q.val; omega

/-- The tile's agreement, on the point's blocks, is the tile's partial of the arrays. -/
theorem tileAgree_blk (c : Dev nD) (t : Fin cfg0.N) (b : Fin 16) (g : Fin 8) :
    tileAgree (iblk0 V c 0 t) (iblk0 V c 1 t) b g
      = partialAt (wOf (V c main_v6)) (arrOf (V c main_arg0)) ⟨t.val, t_lt t⟩ b g := by
  unfold tileAgree tileMix partialAt
  refine Finset.sum_congr rfl fun p _ => Finset.sum_congr rfl fun w _ => Finset.sum_congr rfl fun cc _ => ?_
  rw [iblk_1_apply V c t b p w (lane g cc)]
  refine congrArg (· * _) ?_
  unfold mix
  refine Finset.sum_congr rfl fun g' _ => ?_
  dsimp only
  rw [iblk_0_apply V c t b g', iblk_1_apply V c t b p w (lane g' cc)]
  rfl

/-- WHAT POINT `t` WRITES BACK to the partials array is block `t` of the partials of the entry arrays. -/
theorem flushed_3 (c : Dev nD) (t : Fin cfg0.N) :
    (dat0 V c).flushed 3 t = ((cfg0.win 3).blk t).view.read (Elt Ideal) (partials (V c main_v6) (V c main_arg0)) := by
  show (cfg0.win 3).cut (grid0.coords t) ((dat0 V c).after 3 t) = _
  rw [after0_3]
  obtain ⟨-, -, -, -, -, -, e0, e1, e2⟩ := idx_facts t
  funext j
  revert j
  show ∀ j : S1x16x8.Idx, out0_3 (F := Ideal) (iblk0 V c 0 t) (iblk0 V c 1 t) j
      = partials (V c main_v6) (V c main_arg0) (((cfg0.win 3).blk t).view.emb j)
  intro j
  obtain ⟨u, b, g, rfl⟩ : ∃ (u : Fin 1) (b : Fin 16) (g : Fin 8), j = ix3 u b g := ⟨j 0, j 1, j 2, eq_ix3 j⟩
  obtain rfl : u = 0 := Subsingleton.elim _ _
  rw [out0_3_apply, tileAgree_blk V c t b g]
  have e : ((cfg0.win 3).blk t).view.emb (ix3 (0 : Fin 1) b g) = ix3 (⟨t.val, t_lt t⟩ : Fin 16) b g := by
    funext a
    apply Fin.ext
    match a with
    | ⟨0, _⟩ => show win0_3.index t (0 : Fin 3) * 1 + 1 * 0 = t.val; omega
    | ⟨1, _⟩ => show win0_3.index t (1 : Fin 3) * 16 + 1 * b.val = b.val; omega
    | ⟨2, _⟩ => show win0_3.index t (2 : Fin 3) * 8 + 1 * g.val = g.val; omega
  rw [e]
  rfl

/-- An index of the partials array is in point `t`'s block iff each coordinate is in the block's range. -/
theorem mem_blk_3 (t : Fin cfg0.N) (i : S16x16x8.Idx) :
    i ∈ ((cfg0.win 3).blk t).view.set ↔ ∀ a : Fin 3, win0_3.index t a * S1x16x8.size a ≤ (i a).val ∧ (i a).val < win0_3.index t a * S1x16x8.size a + S1x16x8.size a := by
  show i ∈ ((View.whole (Pipeline.arrRef spec0 3)).slice (win0_3.rect t)).set ↔ _
  rw [View.set_slice_whole, Rect.mem_set_unit]
  exact Iff.rfl

/-- THE PARTIALS ARRAY after the region: the per-tile partials of the weights and the input as the region found them. -/
theorem final_3 (c : Dev nD) :
    (dat0 V c).arrAt 3 cfg0.N = partials (V c main_v6) (V c main_arg0) :=
  (dat0 V c).arrAt_eq_of_cover 3 (partials (V c main_v6) (V c main_arg0)) (fun t _ => flushed_3 V c t) fun i => by
    have h0 : (i 0).val < 16 := (i 0).isLt
    have h1 : (i 1).val < 16 := (i 1).isLt
    have h2 : (i 2).val < 8 := (i 2).isLt
    let t : Fin cfg0.N := ⟨(i 0).val, lt_of_lt_of_eq h0 (show cfg0.N = 16 from N_0).symm⟩
    obtain ⟨-, -, -, -, -, -, e0, e1, e2⟩ := idx_facts t
    have et : t.val = (i 0).val := rfl
    refine ⟨t, flush0_3 t, ?_⟩
    rw [mem_blk_3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 16 ≤ (i 1).val ∧ (i 1).val < win0_3.index t (1 : Fin 3) * 16 + 16; omega
    | ⟨2, _⟩ => show win0_3.index t (2 : Fin 3) * 8 ≤ (i 2).val ∧ (i 2).val < win0_3.index t (2 : Fin 3) * 8 + 8; omega

end Cert.KernelIdeal.Region0

end
-- ==== Proof.Region1.lean ====
/-
  Region 1 of @main (the second launch of the routing kernel) read as a value: from the contents `V` the region is
  entered with, its agreement output array ends holding the per-tile partials of the gate weights array and the input
  array.  Grid point `t` stages the whole weights array, tile `t` of the input (rows 4 t … 4 t + 3) and writes back
  block `t` of the [16, 16, 8] partials; the sixteen blocks tile that array.
-/
import proofs.«137533_j24747601560077_1_alg».proof.Proof.Body
import proofs.«137533_j24747601560077_1_alg».proof.Proof.Tiles
import Idealize.ShloMosaic.Lib.Pipeline.Value

set_option maxRecDepth 16384

noncomputable section

open scoped BigOperators

namespace Cert.KernelIdeal.Region1

open Cert.KernelIdeal Cert.KernelIdeal.Gen Cert.KernelIdeal.Tile Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the weights window stays, the input window and the partials window move with
    the point along their tiled axis. -/
theorem idx_facts : ∀ t : Fin cfg1.N,
    win1_0.index t (0 : Fin 2) = 0 ∧ win1_0.index t (1 : Fin 2) = 0
    ∧ win1_1.index t (0 : Fin 4) = 0 ∧ win1_1.index t (1 : Fin 4) = t.val ∧ win1_1.index t (2 : Fin 4) = 0 ∧ win1_1.index t (3 : Fin 4) = 0
    ∧ win1_3.index t (0 : Fin 3) = t.val ∧ win1_3.index t (1 : Fin 3) = 0 ∧ win1_3.index t (2 : Fin 3) = 0 :=
  (by decide +kernel : ∀ t : Fin grid1.N, _)

theorem t_lt (t : Fin cfg1.N) : t.val < 16 := lt_of_lt_of_eq t.isLt (show cfg1.N = 16 from N_1)

/-- The weights window's block at any point is the whole weights array. -/
theorem iblk_0_apply (c : Dev nD) (t : Fin cfg1.N) (b : Fin 16) (g : Fin 8) :
    (iblk1 V c 0 t : S16x8.Idx → EReal) (ix2 b g) = (V c main_v15 : S16x8.Idx → EReal) (ix2 b g) := by
  obtain ⟨e0, e1, -⟩ := idx_facts t
  show (V c main_v15 : S16x8.Idx → EReal) (((cfg1.win 0).blk t).view.emb (ix2 b g)) = _
  refine congrArg (V c main_v15 : S16x8.Idx → EReal) ?_
  funext a
  apply Fin.ext
  match a with
  | ⟨0, _⟩ => show win1_0.index t (0 : Fin 2) * 16 + 1 * b.val = b.val; omega
  | ⟨1, _⟩ => show win1_0.index t (1 : Fin 2) * 8 + 1 * g.val = g.val; omega

/-- The input window's block at point `t` is rows 4 t … 4 t + 3 of the input array. -/
theorem iblk_1_apply (c : Dev nD) (t : Fin cfg1.N) (b : Fin 16) (p : Fin 4) (w : Fin 64) (q : Fin 512) :
    (iblk1 V c 1 t : S16x4x64x512.Idx → EReal) (ix4 b p w q)
      = (V c main_arg0 : S16x64x64x512.Idx → EReal) (ix4 b (rowOf ⟨t.val, t_lt t⟩ p) w q) := by
  obtain ⟨-, -, e0, e1, e2, e3, -⟩ := idx_facts t
  show (V c main_arg0 : S16x64x64x512.Idx → EReal) (((cfg1.win 1).blk t).view.emb (ix4 b p w q)) = _
  refine congrArg (V c main_arg0 : S16x64x64x512.Idx → EReal) ?_
  funext a
  apply Fin.ext
  match a with
  | ⟨0, _⟩ => show win1_1.index t (0 : Fin 4) * 16 + 1 * b.val = b.val; omega
  | ⟨1, _⟩ => show win1_1.index t (1 : Fin 4) * 4 + 1 * p.val = 4 * t.val + p.val; omega
  | ⟨2, _⟩ => show win1_1.index t (2 : Fin 4) * 64 + 1 * w.val = w.val; omega
  | ⟨3, _⟩ => show win1_1.index t (3 : Fin 4) * 512 + 1 * q.val = q.val; omega

/-- The tile's agreement, on the point's blocks, is the tile's partial of the arrays. -/
theorem tileAgree_blk (c : Dev nD) (t : Fin cfg1.N) (b : Fin 16) (g : Fin 8) :
    tileAgree (iblk1 V c 0 t) (iblk1 V c 1 t) b g
      = partialAt (wOf (V c main_v15)) (arrOf (V c main_arg0)) ⟨t.val, t_lt t⟩ b g := by
  unfold tileAgree tileMix partialAt
  refine Finset.sum_congr rfl fun p _ => Finset.sum_congr rfl fun w _ => Finset.sum_congr rfl fun cc _ => ?_
  rw [iblk_1_apply V c t b p w (lane g cc)]
  refine congrArg (· * _) ?_
  unfold mix
  refine Finset.sum_congr rfl fun g' _ => ?_
  dsimp only
  rw [iblk_0_apply V c t b g', iblk_1_apply V c t b p w (lane g' cc)]
  rfl

/-- WHAT POINT `t` WRITES BACK to the partials array is block `t` of the partials of the entry arrays. -/
theorem flushed_3 (c : Dev nD) (t : Fin cfg1.N) :
    (dat1 V c).flushed 3 t = ((cfg1.win 3).blk t).view.read (Elt Ideal) (partials (V c main_v15) (V c main_arg0)) := by
  show (cfg1.win 3).cut (grid1.coords t) ((dat1 V c).after 3 t) = _
  rw [after1_3, out1_3_eq]
  obtain ⟨-, -, -, -, -, -, e0, e1, e2⟩ := idx_facts t
  funext j
  revert j
  show ∀ j : S1x16x8.Idx, out0_3 (F := Ideal) (iblk1 V c 0 t) (iblk1 V c 1 t) j
      = partials (V c main_v15) (V c main_arg0) (((cfg1.win 3).blk t).view.emb j)
  intro j
  obtain ⟨u, b, g, rfl⟩ : ∃ (u : Fin 1) (b : Fin 16) (g : Fin 8), j = ix3 u b g := ⟨j 0, j 1, j 2, eq_ix3 j⟩
  obtain rfl : u = 0 := Subsingleton.elim _ _
  rw [out0_3_apply, tileAgree_blk V c t b g]
  have e : ((cfg1.win 3).blk t).view.emb (ix3 (0 : Fin 1) b g) = ix3 (⟨t.val, t_lt t⟩ : Fin 16) b g := by
    funext a
    apply Fin.ext
    match a with
    | ⟨0, _⟩ => show win1_3.index t (0 : Fin 3) * 1 + 1 * 0 = t.val; omega
    | ⟨1, _⟩ => show win1_3.index t (1 : Fin 3) * 16 + 1 * b.val = b.val; omega
    | ⟨2, _⟩ => show win1_3.index t (2 : Fin 3) * 8 + 1 * g.val = g.val; omega
  rw [e]
  rfl

/-- An index of the partials array is in point `t`'s block iff each coordinate is in the block's range. -/
theorem mem_blk_3 (t : Fin cfg1.N) (i : S16x16x8.Idx) :
    i ∈ ((cfg1.win 3).blk t).view.set ↔ ∀ a : Fin 3, win1_3.index t a * S1x16x8.size a ≤ (i a).val ∧ (i a).val < win1_3.index t a * S1x16x8.size a + S1x16x8.size a := by
  show i ∈ ((View.whole (Pipeline.arrRef spec1 3)).slice (win1_3.rect t)).set ↔ _
  rw [View.set_slice_whole, Rect.mem_set_unit]
  exact Iff.rfl

/-- THE PARTIALS ARRAY after the region: the per-tile partials of the weights and the input as the region found them. -/
theorem final_3 (c : Dev nD) :
    (dat1 V c).arrAt 3 cfg1.N = partials (V c main_v15) (V c main_arg0) :=
  (dat1 V c).arrAt_eq_of_cover 3 (partials (V c main_v15) (V c main_arg0)) (fun t _ => flushed_3 V c t) fun i => by
    have h0 : (i 0).val < 16 := (i 0).isLt
    have h1 : (i 1).val < 16 := (i 1).isLt
    have h2 : (i 2).val < 8 := (i 2).isLt
    let t : Fin cfg1.N := ⟨(i 0).val, lt_of_lt_of_eq h0 (show cfg1.N = 16 from N_1).symm⟩
    obtain ⟨-, -, -, -, -, -, e0, e1, e2⟩ := idx_facts t
    have et : t.val = (i 0).val := rfl
    refine ⟨t, flush1_3 t, ?_⟩
    rw [mem_blk_3]
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 16 ≤ (i 1).val ∧ (i 1).val < win1_3.index t (1 : Fin 3) * 16 + 16; omega
    | ⟨2, _⟩ => show win1_3.index t (2 : Fin 3) * 8 ≤ (i 2).val ∧ (i 2).val < win1_3.index t (2 : Fin 3) * 8 + 8; omega

end Cert.KernelIdeal.Region1

end
-- ==== Proof.Region2.lean ====
/-
  Region 2 of @main (the last launch of the routing kernel) read as a value: from the contents `V` the region is entered
  with, its mixed output array ends holding the gated mix of the input array under the gate weights array.  Grid point
  `t` stages the whole weights array and tile `t` of the input (rows 4 t … 4 t + 3) and writes back rows 4 t … 4 t + 3 of
  the [16, 64, 64, 64] output; the sixteen blocks tile that array.
-/
import proofs.«137533_j24747601560077_1_alg».proof.Proof.Body
import proofs.«137533_j24747601560077_1_alg».proof.Proof.Tiles
import Idealize.ShloMosaic.Lib.Pipeline.Value

set_option maxRecDepth 16384

noncomputable section

open scoped BigOperators

namespace Cert.KernelIdeal.Region2

open Cert.KernelIdeal Cert.KernelIdeal.Gen Cert.KernelIdeal.Tile Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the weights window stays, the input window and the output window move with
    the point along the row axis. -/
theorem idx_facts : ∀ t : Fin cfg2.N,
    win2_0.index t (0 : Fin 2) = 0 ∧ win2_0.index t (1 : Fin 2) = 0
    ∧ win2_1.index t (0 : Fin 4) = 0 ∧ win2_1.index t (1 : Fin 4) = t.val ∧ win2_1.index t (2 : Fin 4) = 0 ∧ win2_1.index t (3 : Fin 4) = 0
    ∧ win2_2.index t (0 : Fin 4) = 0 ∧ win2_2.index t (1 : Fin 4) = t.val ∧ win2_2.index t (2 : Fin 4) = 0 ∧ win2_2.index t (3 : Fin 4) = 0 :=
  (by decide +kernel : ∀ t : Fin grid2.N, _)

theorem t_lt (t : Fin cfg2.N) : t.val < 16 := lt_of_lt_of_eq t.isLt (show cfg2.N = 16 from N_2)

/-- The weights window's block at any point is the whole weights array. -/
theorem iblk_0_apply (c : Dev nD) (t : Fin cfg2.N) (b : Fin 16) (g : Fin 8) :
    (iblk2 V c 0 t : S16x8.Idx → EReal) (ix2 b g) = (V c main_v24 : S16x8.Idx → EReal) (ix2 b g) := by
  obtain ⟨e0, e1, -⟩ := idx_facts t
  show (V c main_v24 : S16x8.Idx → EReal) (((cfg2.win 0).blk t).view.emb (ix2 b g)) = _
  refine congrArg (V c main_v24 : S16x8.Idx → EReal) ?_
  funext a
  apply Fin.ext
  match a with
  | ⟨0, _⟩ => show win2_0.index t (0 : Fin 2) * 16 + 1 * b.val = b.val; omega
  | ⟨1, _⟩ => show win2_0.index t (1 : Fin 2) * 8 + 1 * g.val = g.val; omega

/-- The input window's block at point `t` is rows 4 t … 4 t + 3 of the input array. -/
theorem iblk_1_apply (c : Dev nD) (t : Fin cfg2.N) (b : Fin 16) (p : Fin 4) (w : Fin 64) (q : Fin 512) :
    (iblk2 V c 1 t : S16x4x64x512.Idx → EReal) (ix4 b p w q)
      = (V c main_arg0 : S16x64x64x512.Idx → EReal) (ix4 b (rowOf ⟨t.val, t_lt t⟩ p) w q) := by
  obtain ⟨-, -, e0, e1, e2, e3, -⟩ := idx_facts t
  show (V c main_arg0 : S16x64x64x512.Idx → EReal) (((cfg2.win 1).blk t).view.emb (ix4 b p w q)) = _
  refine congrArg (V c main_arg0 : S16x64x64x512.Idx → EReal) ?_
  funext a
  apply Fin.ext
  match a with
  | ⟨0, _⟩ => show win2_1.index t (0 : Fin 4) * 16 + 1 * b.val = b.val; omega
  | ⟨1, _⟩ => show win2_1.index t (1 : Fin 4) * 4 + 1 * p.val = 4 * t.val + p.val; omega
  | ⟨2, _⟩ => show win2_1.index t (2 : Fin 4) * 64 + 1 * w.val = w.val; omega
  | ⟨3, _⟩ => show win2_1.index t (3 : Fin 4) * 512 + 1 * q.val = q.val; omega

/-- The tile's mix, on the point's blocks, is the mix of the arrays at the tile's row. -/
theorem tileMix_blk (c : Dev nD) (t : Fin cfg2.N) (b : Fin 16) (p : Fin 4) (w cc : Fin 64) :
    tileMix (iblk2 V c 0 t) (iblk2 V c 1 t) b p w cc
      = mix (wOf (V c main_v24) b) (arrOf (V c main_arg0) b (rowOf ⟨t.val, t_lt t⟩ p) w) cc := by
  unfold tileMix mix
  refine Finset.sum_congr rfl fun g' _ => ?_
  dsimp only
  rw [iblk_0_apply V c t b g', iblk_1_apply V c t b p w (lane g' cc)]
  rfl

/-- WHAT POINT `t` WRITES BACK to the output array is block `t` of the mix of the entry arrays. -/
theorem flushed_2 (c : Dev nD) (t : Fin cfg2.N) :
    (dat2 V c).flushed 2 t = ((cfg2.win 2).blk t).view.read (Elt Ideal) (mixed (V c main_v24) (V c main_arg0)) := by
  show (cfg2.win 2).cut (grid2.coords t) ((dat2 V c).after 2 t) = _
  rw [after2_2, out2_2_eq]
  obtain ⟨-, -, -, -, -, -, e0, e1, e2, e3⟩ := idx_facts t
  funext j
  revert j
  show ∀ j : S16x4x64x64.Idx, out0_2 (F := Ideal) (iblk2 V c 0 t) (iblk2 V c 1 t) j
      = mixed (V c main_v24) (V c main_arg0) (((cfg2.win 2).blk t).view.emb j)
  intro j
  obtain ⟨b, p, w, cc, rfl⟩ : ∃ (b : Fin 16) (p : Fin 4) (w cc : Fin 64), j = ix4 b p w cc := ⟨j 0, j 1, j 2, j 3, eq_ix4 j⟩
  rw [out0_2_apply, tileMix_blk V c t b p w cc]
  have e : ((cfg2.win 2).blk t).view.emb (ix4 b p w cc) = ix4 b (rowOf ⟨t.val, t_lt t⟩ p) w cc := by
    funext a
    apply Fin.ext
    match a with
    | ⟨0, _⟩ => show win2_2.index t (0 : Fin 4) * 16 + 1 * b.val = b.val; omega
    | ⟨1, _⟩ => show win2_2.index t (1 : Fin 4) * 4 + 1 * p.val = 4 * t.val + p.val; omega
    | ⟨2, _⟩ => show win2_2.index t (2 : Fin 4) * 64 + 1 * w.val = w.val; omega
    | ⟨3, _⟩ => show win2_2.index t (3 : Fin 4) * 64 + 1 * cc.val = cc.val; omega
  rw [e]
  rfl

/-- An index of the output array is in point `t`'s block iff each coordinate is in the block's range. -/
theorem mem_blk_2 (t : Fin cfg2.N) (i : S16x64x64x64.Idx) :
    i ∈ ((cfg2.win 2).blk t).view.set ↔ ∀ a : Fin 4, win2_2.index t a * S16x4x64x64.size a ≤ (i a).val ∧ (i a).val < win2_2.index t a * S16x4x64x64.size a + S16x4x64x64.size a := by
  show i ∈ ((View.whole (Pipeline.arrRef spec2 2)).slice (win2_2.rect t)).set ↔ _
  rw [View.set_slice_whole, Rect.mem_set_unit]
  exact Iff.rfl

/-- THE OUTPUT ARRAY after the region: the gated mix of the input under the weights as the region found them. -/
theorem final_2 (c : Dev nD) :
    (dat2 V c).arrAt 2 cfg2.N = mixed (V c main_v24) (V c main_arg0) :=
  (dat2 V c).arrAt_eq_of_cover 2 (mixed (V c main_v24) (V c main_arg0)) (fun t _ => flushed_2 V c t) fun i => by
    have h0 : (i 0).val < 16 := (i 0).isLt
    have h1 : (i 1).val < 64 := (i 1).isLt
    have h2 : (i 2).val < 64 := (i 2).isLt
    have h3 : (i 3).val < 64 := (i 3).isLt
    let t : Fin cfg2.N := ⟨(i 1).val / 4, lt_of_lt_of_eq (show (i 1).val / 4 < 16 by omega) (show cfg2.N = 16 from N_2).symm⟩
    obtain ⟨-, -, -, -, -, -, e0, e1, e2, e3⟩ := idx_facts t
    have et : t.val = (i 1).val / 4 := rfl
    refine ⟨t, flush2_2 t, ?_⟩
    rw [mem_blk_2]
    intro a
    match a with
    | ⟨0, _⟩ => show win2_2.index t (0 : Fin 4) * 16 ≤ (i 0).val ∧ (i 0).val < win2_2.index t (0 : Fin 4) * 16 + 16; omega
    | ⟨1, _⟩ => show win2_2.index t (1 : Fin 4) * 4 ≤ (i 1).val ∧ (i 1).val < win2_2.index t (1 : Fin 4) * 4 + 4; omega
    | ⟨2, _⟩ => show win2_2.index t (2 : Fin 4) * 64 ≤ (i 2).val ∧ (i 2).val < win2_2.index t (2 : Fin 4) * 64 + 64; omega
    | ⟨3, _⟩ => show win2_2.index t (3 : Fin 4) * 64 ≤ (i 3).val ∧ (i 3).val < win2_2.index t (3 : Fin 4) * 64 + 64; omega

end Cert.KernelIdeal.Region2

end
-- ==== Proof.HostSteps.lean ====
/-
  The host operations between the launches, as functions of [16, 8] arrays and read at an index: the zero logits, the
  logistic gate `1 / (1 + exp (-β))`, and the logit update `β + Σ_t P t` that adds the sixteen per-tile partials (a sum
  over the leading axis of a [16, 16, 8] array, from a zero initial value).  At the ideal values the update by the
  partials of the gated weights is one routing iteration.
-/
import proofs.«137533_j24747601560077_1_alg».proof.Proof.Gen.KernelIdeal
import proofs.«137533_j24747601560077_1_alg».proof.Proof.Tiles
import Idealize.ShloMosaic.PureOps.Ideal.Laws
import Idealize.ShloMosaic.Lib.ValueIdx

noncomputable section

open scoped BigOperators

namespace Cert.KernelIdeal.Host

open Cert.KernelIdeal Cert.KernelIdeal.Facts₀ Cert.KernelIdeal.Facts Cert.Routing Idealize.ShloMosaic Idealize.ShloMosaic.ValueIdx

/-- The zero logits. -/
def zeroArr : FVec Ideal S16x8 .f32 :=
  broadcastInDim S16x8 ![] bcast_S_S16x8 (constant (F := Ideal) S_ .f32 0x00000000#32)

/-- The gate of an array of logits, as the host computes it. -/
def gateArr (β : FVec Ideal S16x8 .f32) : FVec Ideal S16x8 .f32 :=
  Host.divf (F := Ideal) (broadcastInDim S16x8 ![] bcast_S_S16x8 (constant (F := Ideal) S_ .f32 0x3F800000#32))
    (addf (broadcastInDim S16x8 ![] bcast_S_S16x8 (constant (F := Ideal) S_ .f32 0x3F800000#32)) (Host.exp (Host.negf β)))

/-- The logits plus the sum of the per-tile partials. -/
def bumpArr (β : FVec Ideal S16x8 .f32) (P : FVec Ideal S16x16x8 .f32) : FVec Ideal S16x8 .f32 :=
  addf β (Host.reduceAdd (F := Ideal) P (constant (F := Ideal) S_ .f32 0x00000000#32) reducesTo_S16x16x8_S16x8_d0 h_S_)

theorem zeroArr_apply (i : S16x8.Idx) : zeroArr i = (0 : EReal) := by
  show Ideal.ofBits .f32 0x00000000#32 = 0
  exact Ideal.ofBits_zero_f32

theorem gateArr_apply (β : FVec Ideal S16x8 .f32) (i : S16x8.Idx) : gateArr β i = gate (β i) := rfl

theorem bumpArr_apply (β : FVec Ideal S16x8 .f32) (P : FVec Ideal S16x16x8 .f32) (b : Fin 16) (g : Fin 8) :
    bumpArr β P (ix2 b g) = β (ix2 b g) + ∑ t : Fin 16, P (ix3 t b g) := by
  unfold bumpArr
  rw [addf_apply]
  refine congrArg (β (ix2 b g) + ·) ?_
  simp only [Host.reduceAdd, Ideal.hostReduceAdd_def]
  rw [Ideal.hostReduceAdd_single reducesTo_S16x16x8_S16x8_d0 (by decide)]
  rw [show constant (F := Ideal) S_ .f32 0x00000000#32 (Shape.Idx.first h_S_) = (0 : EReal) from Ideal.ofBits_zero_f32, zero_add]
  refine Finset.sum_congr rfl fun t _ => congrArg P ?_
  exact funext fun a => Fin.ext (by match a with | ⟨0, _⟩ => rfl | ⟨1, _⟩ => rfl | ⟨2, _⟩ => rfl)

theorem wOf_zero : wOf zeroArr = fun _ _ => (0 : EReal) := funext fun b => funext fun g => zeroArr_apply (ix2 b g)

theorem wOf_gate (β : FVec Ideal S16x8 .f32) : wOf (gateArr β) = fun b g => gate (wOf β b g) := rfl

/-- The update by the partials of the gated weights is one routing iteration on the logits. -/
theorem wOf_step (β : FVec Ideal S16x8 .f32) (x : FVec Ideal S16x64x64x512 .f32) :
    wOf (bumpArr β (partials (gateArr β) x)) = step (wOf β) (arrOf x) := by
  funext b g
  show bumpArr β (partials (gateArr β) x) (ix2 b g) = _
  rw [bumpArr_apply]
  unfold step
  refine congrArg (wOf β b g + ·) ?_
  exact sum_partialAt (wOf (gateArr β)) (arrOf x) b g

end Cert.KernelIdeal.Host

end
-- ==== Proof.Chain.lean ====
/-
  The idealized kernel's @main read as a value, boundary by boundary.

  @main is three launches of one kernel among host operations.  The first stretch makes the zero logits and their
  gate; each launch leaves the per-tile partial agreements of the gate and the input; the next stretch adds the
  partials' sum to the logits and takes the gate again; the third launch's mixed output is the result.  Reading the
  generated boundary contents in order gives the result array as the routed output of the launch contents of the input.
-/
import proofs.«137533_j24747601560077_1_alg».proof.Proof.Gen.KernelIdeal.Frame
import proofs.«137533_j24747601560077_1_alg».proof.Proof.Region0
import proofs.«137533_j24747601560077_1_alg».proof.Proof.Region1
import proofs.«137533_j24747601560077_1_alg».proof.Proof.Region2
import proofs.«137533_j24747601560077_1_alg».proof.Proof.HostSteps
import Idealize.ShloMosaic.Lib.StableHlo.Run

set_option maxRecDepth 16384

noncomputable section

open scoped BigOperators

namespace Cert.KernelIdeal.Chain

open Cert.KernelIdeal Cert.KernelIdeal.Facts₀ Cert.KernelIdeal.Facts Cert.KernelIdeal.Gen Cert.KernelIdeal.Host Cert.Routing
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The logits after the first launch, as the host leaves them. -/
def beta1 (x : FVec Ideal S16x64x64x512 .f32) : FVec Ideal S16x8 .f32 := bumpArr zeroArr (partials (gateArr zeroArr) x)

/-- The logits after the second launch. -/
def beta2 (x : FVec Ideal S16x64x64x512 .f32) : FVec Ideal S16x8 .f32 := bumpArr (beta1 x) (partials (gateArr (beta1 x)) x)

/-! ## Region 0's entry: after the first stretch -/

theorem w1_v6 (c : Dev nD) : (W1 m ρ c (Proc.devRef .tc main_v6) : S16x8.Idx → EReal) = gateArr zeroArr := by
  show StableHlo.after hostOps0 (W0 m ρ c) (Proc.devRef .tc main_v6) = _
  after_results
  rfl

theorem w1_v0 (c : Dev nD) : (W1 m ρ c (Proc.devRef .tc main_v0) : S16x8.Idx → EReal) = zeroArr := by
  show StableHlo.after hostOps0 (W0 m ρ c) (Proc.devRef .tc main_v0) = _
  after_results
  rfl

theorem w1_arg0 (c : Dev nD) :
    (W1 m ρ c (Proc.devRef .tc main_arg0) : S16x64x64x512.Idx → EReal) = m ((c : Thread nD τ).loc main_arg0) := by
  show StableHlo.after hostOps0 (W0 m ρ c) (Proc.devRef .tc main_arg0) = _
  after_results

/-! ## Region 0's exit -/

theorem w2_partials (c : Dev nD) :
    (W2 m ρ c (Proc.devRef .tc main_v7_1) : S16x16x8.Idx → EReal)
      = partials (gateArr zeroArr) (m ((c : Thread nD τ).loc main_arg0)) := by
  refine (W2_arr m ρ c 3).trans ((Region0.final_3 (V1 m ρ) c).trans ?_)
  have e1 : (V1 m ρ c main_v6 : S16x8.Idx → EReal) = gateArr zeroArr := w1_v6 m ρ c
  have e2 : (V1 m ρ c main_arg0 : S16x64x64x512.Idx → EReal) = m ((c : Thread nD τ).loc main_arg0) := w1_arg0 m ρ c
  rw [e1, e2]

theorem w2_v0 (c : Dev nD) : (W2 m ρ c (Proc.devRef .tc main_v0) : S16x8.Idx → EReal) = zeroArr :=
  (W2_of_ne m ρ c main_v0 (by decide)).trans (w1_v0 m ρ c)

theorem w2_arg0 (c : Dev nD) :
    (W2 m ρ c (Proc.devRef .tc main_arg0) : S16x64x64x512.Idx → EReal) = m ((c : Thread nD τ).loc main_arg0) :=
  ((W2_arr m ρ c 1).trans (((dat0 (V1 m ρ) c).arrAt_in 1 rfl _).trans (A_eq0 (V1 m ρ) c 1))).trans (w1_arg0 m ρ c)

/-! ## Region 1's entry: after the second stretch -/

theorem w3_v9 (c : Dev nD) :
    (W3 m ρ c (Proc.devRef .tc main_v9) : S16x8.Idx → EReal) = beta1 (m ((c : Thread nD τ).loc main_arg0)) := by
  show StableHlo.after hostOps1 (W2 m ρ c) (Proc.devRef .tc main_v9) = _
  after_results
  rw [w2_v0 m ρ c, w2_partials m ρ c]
  rfl

theorem w3_v15 (c : Dev nD) :
    (W3 m ρ c (Proc.devRef .tc main_v15) : S16x8.Idx → EReal) = gateArr (beta1 (m ((c : Thread nD τ).loc main_arg0))) := by
  show StableHlo.after hostOps1 (W2 m ρ c) (Proc.devRef .tc main_v15) = _
  after_results
  rw [w2_v0 m ρ c, w2_partials m ρ c]
  rfl

theorem w3_arg0 (c : Dev nD) :
    (W3 m ρ c (Proc.devRef .tc main_arg0) : S16x64x64x512.Idx → EReal) = m ((c : Thread nD τ).loc main_arg0) := by
  show StableHlo.after hostOps1 (W2 m ρ c) (Proc.devRef .tc main_arg0) = _
  after_results
  exact w2_arg0 m ρ c

/-! ## Region 1's exit -/

theorem w4_partials (c : Dev nD) :
    (W4 m ρ c (Proc.devRef .tc main_v16_1) : S16x16x8.Idx → EReal)
      = partials (gateArr (beta1 (m ((c : Thread nD τ).loc main_arg0)))) (m ((c : Thread nD τ).loc main_arg0)) := by
  refine (W4_arr m ρ c 3).trans ((Region1.final_3 (V3 m ρ) c).trans ?_)
  have e1 : (V3 m ρ c main_v15 : S16x8.Idx → EReal) = gateArr (beta1 (m ((c : Thread nD τ).loc main_arg0))) := w3_v15 m ρ c
  have e2 : (V3 m ρ c main_arg0 : S16x64x64x512.Idx → EReal) = m ((c : Thread nD τ).loc main_arg0) := w3_arg0 m ρ c
  rw [e1, e2]

theorem w4_v9 (c : Dev nD) :
    (W4 m ρ c (Proc.devRef .tc main_v9) : S16x8.Idx → EReal) = beta1 (m ((c : Thread nD τ).loc main_arg0)) :=
  (W4_of_ne m ρ c main_v9 (by decide)).trans (w3_v9 m ρ c)

theorem w4_arg0 (c : Dev nD) :
    (W4 m ρ c (Proc.devRef .tc main_arg0) : S16x64x64x512.Idx → EReal) = m ((c : Thread nD τ).loc main_arg0) :=
  ((W4_arr m ρ c 1).trans (((dat1 (V3 m ρ) c).arrAt_in 1 rfl _).trans (A_eq1 (V3 m ρ) c 1))).trans (w3_arg0 m ρ c)

/-! ## Region 2's entry: after the third stretch -/

theorem w5_v24 (c : Dev nD) :
    (W5 m ρ c (Proc.devRef .tc main_v24) : S16x8.Idx → EReal) = gateArr (beta2 (m ((c : Thread nD τ).loc main_arg0))) := by
  show StableHlo.after hostOps2 (W4 m ρ c) (Proc.devRef .tc main_v24) = _
  after_results
  rw [w4_v9 m ρ c, w4_partials m ρ c]
  rfl

theorem w5_arg0 (c : Dev nD) :
    (W5 m ρ c (Proc.devRef .tc main_arg0) : S16x64x64x512.Idx → EReal) = m ((c : Thread nD τ).loc main_arg0) := by
  show StableHlo.after hostOps2 (W4 m ρ c) (Proc.devRef .tc main_arg0) = _
  after_results
  exact w4_arg0 m ρ c

/-! ## The result -/

/-- The gated logits after two iterations are the recurrence's. -/
theorem wOf_beta2 (x : FVec Ideal S16x64x64x512 .f32) : wOf (beta2 x) = logits (arrOf x) := by
  unfold beta2 logits
  rw [wOf_step (beta1 x) x]
  unfold beta1
  rw [wOf_step zeroArr x, wOf_zero]

/-- The mixed array under the final gate is the routed output. -/
theorem mixed_final (x : FVec Ideal S16x64x64x512 .f32) : mixed (gateArr (beta2 x)) x = routedArr x := by
  funext i
  unfold mixed routedArr routed
  rw [wOf_gate, wOf_beta2]

/-- THE RESULT ARRAY at the last boundary: the routed output of the input array as launched. -/
theorem w6_result (c : Dev nD) :
    (W6 m ρ c (Proc.devRef .tc main_v25_0) : S16x64x64x64.Idx → EReal) = routedArr (m ((c : Thread nD τ).loc main_arg0)) := by
  refine (W6_arr m ρ c 2).trans ((Region2.final_2 (V5 m ρ) c).trans ?_)
  have e1 : (V5 m ρ c main_v24 : S16x8.Idx → EReal) = gateArr (beta2 (m ((c : Thread nD τ).loc main_arg0))) := w5_v24 m ρ c
  have e2 : (V5 m ρ c main_arg0 : S16x64x64x512.Idx → EReal) = m ((c : Thread nD τ).loc main_arg0) := w5_arg0 m ρ c
  rw [e1, e2]
  exact mixed_final _

end Cert.KernelIdeal.Chain

end
-- ==== Proof.LibRank5Sum.lean ====
/-
  A host sum over three axes of a rank-5 array, read at an index.

  `Host.reduceAdd` over axes [1, 2, 4] of an [n0, n1, n2, n3, n4] array keeps axes 0 and 3; at the ideal values its entry
  (b, g) is the initial value plus the triple sum, over the coordinates h, w, c of the three dropped axes, of the array at
  (b, h, w, g, c).  General in the five extents.
-/
import Idealize.ShloMosaic.PureOps.Ideal.Laws
import Idealize.ShloMosaic.Lib.ValueIdx

noncomputable section

open scoped BigOperators

namespace Cert.Rank5Sum

open Idealize.ShloMosaic Idealize.ShloMosaic.ValueIdx

variable {n0 n1 n2 n3 n4 : Nat}

/-- The kept coordinates of an index: axes 0 and 3. -/
theorem drop_val (h' : (⟨5, ![n0, n1, n2, n3, n4]⟩ : Shape).ReducesTo [1, 2, 4] ⟨2, ![n0, n3]⟩)
    (i : (⟨5, ![n0, n1, n2, n3, n4]⟩ : Shape).Idx) :
    (h'.drop i 0).val = (i 0).val ∧ (h'.drop i 1).val = (i 3).val := ⟨rfl, rfl⟩

/-- The host's add-reduction over axes [1, 2, 4] at entry (b, g): the initial value plus the sum over the three dropped
    coordinates. -/
theorem hostReduceAdd_124_apply (h' : (⟨5, ![n0, n1, n2, n3, n4]⟩ : Shape).ReducesTo [1, 2, 4] ⟨2, ![n0, n3]⟩)
    (y : (⟨5, ![n0, n1, n2, n3, n4]⟩ : Shape).Idx → EReal) (init : EReal) (b : Fin n0) (g : Fin n3) :
    Ideal.hostReduceAdd h' y init (ix2 b g)
      = init + ∑ h : Fin n1, ∑ w : Fin n2, ∑ c : Fin n4, y (ix5 b h w g c) := by
  unfold Ideal.hostReduceAdd
  refine congrArg (init + ·) ?_
  have hsplit : ∑ h : Fin n1, ∑ w : Fin n2, ∑ c : Fin n4, y (ix5 b h w g c)
      = ∑ q : Fin n1 × Fin n2 × Fin n4, y (ix5 b q.1 q.2.1 g q.2.2) := by
    rw [Fintype.sum_prod_type]
    refine Finset.sum_congr rfl fun h _ => ?_
    rw [Fintype.sum_prod_type]
  rw [hsplit]
  refine Finset.sum_nbij' (fun i => (i 1, i 2, i 4)) (fun q => ix5 b q.1 q.2.1 g q.2.2) ?_ ?_ ?_ ?_ ?_
  · intro i _; exact Finset.mem_univ _
  · intro q _
    refine Finset.mem_filter.2 ⟨Finset.mem_univ _, ?_⟩
    funext d
    apply Fin.ext
    match d with
    | ⟨0, _⟩ => exact (drop_val h' _).1
    | ⟨1, _⟩ => exact (drop_val h' _).2
  · intro i hi
    have hj := (Finset.mem_filter.1 hi).2
    have e0 : (i 0).val = b.val := ((drop_val h' i).1).symm.trans (congrArg (fun j : (⟨2, ![n0, n3]⟩ : Shape).Idx => (j 0).val) hj)
    have e3 : (i 3).val = g.val := ((drop_val h' i).2).symm.trans (congrArg (fun j : (⟨2, ![n0, n3]⟩ : Shape).Idx => (j 1).val) hj)
    funext d
    apply Fin.ext
    match d with
    | ⟨0, _⟩ => exact e0.symm
    | ⟨1, _⟩ => rfl
    | ⟨2, _⟩ => rfl
    | ⟨3, _⟩ => exact e3.symm
    | ⟨4, _⟩ => rfl
  · intro q _; rfl
  · intro i hi
    have hj := (Finset.mem_filter.1 hi).2
    have e0 : (i 0).val = b.val := ((drop_val h' i).1).symm.trans (congrArg (fun j : (⟨2, ![n0, n3]⟩ : Shape).Idx => (j 0).val) hj)
    have e3 : (i 3).val = g.val := ((drop_val h' i).2).symm.trans (congrArg (fun j : (⟨2, ![n0, n3]⟩ : Shape).Idx => (j 1).val) hj)
    refine congrArg y ?_
    funext d
    apply Fin.ext
    match d with
    | ⟨0, _⟩ => exact e0
    | ⟨1, _⟩ => rfl
    | ⟨2, _⟩ => rfl
    | ⟨3, _⟩ => exact e3
    | ⟨4, _⟩ => rfl

end Cert.Rank5Sum

end
-- ==== Proof.RefValue.lean ====
/-
  The reference program's result as the routing recurrence of the input array.

  The reference reshapes the input to [16, 64, 64, 8, 64] (lane 64 g + c becomes (g, c)), keeps its logits as a
  [16, 1, 1, 8, 1] array, and per iteration takes the gate, the sum over the group axis of gate times input, and the sum
  over rows, columns and channels of that mixed array times the input.  Read at an index these are `mix`, `agree` and
  `step` of the input by coordinates; the last mixed array, reshaped to [16, 64, 64, 64], is `routed`.
-/
import proofs.«137533_j24747601560077_1_alg».proof.Proof.Gen.ReferenceIdeal.Read
import proofs.«137533_j24747601560077_1_alg».proof.Proof.Tiles
import proofs.«137533_j24747601560077_1_alg».proof.Proof.LibRank5Sum

noncomputable section

open scoped BigOperators

namespace Cert.ReferenceIdeal.RefValue

open Cert.ReferenceIdeal Cert.ReferenceIdeal.Facts₀ Cert.ReferenceIdeal.Read Cert.Routing
open Idealize.ShloMosaic Idealize.ShloMosaic.ValueIdx

/-! ## The layout operations' indices, by coordinates -/

/-- The reshape: entry (b, h, w, g, c) of the rank-5 view is the input at lane 64 g + c. -/
theorem idx_in (b : Fin 16) (h w : Fin 64) (g : Fin 8) (c : Fin 64) :
    idx_main_v0 (ix5 b h w g c) = ix4 b h w (lane g c) := by
  have hb := b.isLt; have hh := h.isLt; have hw := w.isLt; have hg := g.isLt; have hc := c.isLt
  funext a
  apply Fin.ext
  match a with
  | ⟨0, _⟩ => show ((((b.val * 64 + h.val) * 64 + w.val) * 8 + g.val) * 64 + c.val) / 2097152 = b.val; omega
  | ⟨1, _⟩ => show ((((b.val * 64 + h.val) * 64 + w.val) * 8 + g.val) * 64 + c.val) / 32768 % 64 = h.val; omega
  | ⟨2, _⟩ => show ((((b.val * 64 + h.val) * 64 + w.val) * 8 + g.val) * 64 + c.val) / 512 % 64 = w.val; omega
  | ⟨3, _⟩ => show ((((b.val * 64 + h.val) * 64 + w.val) * 8 + g.val) * 64 + c.val) % 512 = 64 * g.val + c.val; omega

/-- The gate's broadcast over rows, columns and channels reads the gate of (b, g). -/
theorem idx_gate (b : Fin 16) (h w : Fin 64) (g : Fin 8) (c : Fin 64) :
    idx_main_v9 (ix5 b h w g c) = ix5 b 0 0 g 0 :=
  funext fun a => Fin.ext (by match a with | ⟨0, _⟩ => rfl | ⟨1, _⟩ => rfl | ⟨2, _⟩ => rfl | ⟨3, _⟩ => rfl | ⟨4, _⟩ => rfl)

/-- The group sum's inserted coordinate. -/
theorem idx_lift (b : Fin 16) (h w : Fin 64) (g : Fin 8) (c : Fin 64) :
    idx_main_v11 (ix4 b h w c) g = ix5 b h w g c :=
  funext fun a => Fin.ext (by match a with | ⟨0, _⟩ => rfl | ⟨1, _⟩ => rfl | ⟨2, _⟩ => rfl | ⟨3, _⟩ => rfl | ⟨4, _⟩ => rfl)

/-- The mixed array spread back over the group axis reads (b, h, w, c). -/
theorem idx_keep (b : Fin 16) (h w : Fin 64) (g : Fin 8) (c : Fin 64) :
    idx_main_v12 (idx_main_v13 (ix5 b h w g c)) = ix4 b h w c :=
  funext fun a => Fin.ext (by match a with | ⟨0, _⟩ => rfl | ⟨1, _⟩ => rfl | ⟨2, _⟩ => rfl | ⟨3, _⟩ => rfl)

/-- The agreement laid out as a [16, 1, 1, 8, 1] array reads (b, g). -/
theorem idx_col (b : Fin 16) (g : Fin 8) : idx_main_v16 (ix5 b 0 0 g 0) = ix2 b g :=
  funext fun a => Fin.ext (by match a with | ⟨0, _⟩ => rfl | ⟨1, _⟩ => rfl)

/-- The last reshape drops the unit group axis. -/
theorem idx_out (b : Fin 16) (h w c : Fin 64) : idx_main_v42 (idx_main_v43 (ix4 b h w c)) = ix4 b h w c := by
  have hb := b.isLt; have hh := h.isLt; have hw := w.isLt; have hc := c.isLt
  funext a
  apply Fin.ext
  match a with
  | ⟨0, _⟩ => show (((b.val * 64 + h.val) * 64 + w.val) * 64 + c.val) / 262144 = b.val; omega
  | ⟨1, _⟩ => show (((b.val * 64 + h.val) * 64 + w.val) * 64 + c.val) / 4096 % 64 = h.val; omega
  | ⟨2, _⟩ => show (((b.val * 64 + h.val) * 64 + w.val) * 64 + c.val) / 64 % 64 = w.val; omega
  | ⟨3, _⟩ => show (((b.val * 64 + h.val) * 64 + w.val) * 64 + c.val) % 64 = c.val; omega

/-! ## The gates -/

theorem gate_v8 (i : S16x1x1x8x1.Idx) : val_main_v8 (F := Ideal) i = gate (val_main_v1 (F := Ideal) i) := rfl

theorem gate_v23 (x0 : (⟨S16x64x64x512, .f32⟩ : BufTy).Contents (Elt Ideal)) (i : S16x1x1x8x1.Idx) :
    val_main_v23 (F := Ideal) x0 i = gate (val_main_v17 (F := Ideal) x0 i) := rfl

theorem gate_v38 (x0 : (⟨S16x64x64x512, .f32⟩ : BufTy).Contents (Elt Ideal)) (i : S16x1x1x8x1.Idx) :
    val_main_v38 (F := Ideal) x0 i = gate (val_main_v32 (F := Ideal) x0 i) := rfl

theorem zero_v1 (i : S16x1x1x8x1.Idx) : val_main_v1 (F := Ideal) i = (0 : EReal) := by
  show Ideal.ofBits .f32 0x00000000#32 = 0
  exact Ideal.ofBits_zero_f32

/-! ## The stages -/

/-- Launch 1's mixed array: the gated sum over the group axis of the reshaped input. -/
theorem mixStage1 (x0 : (⟨S16x64x64x512, .f32⟩ : BufTy).Contents (Elt Ideal)) (B : Fin 16 → Fin 8 → EReal)
    (hB : ∀ b g, val_main_v8 (F := Ideal) (ix5 b 0 0 g 0) = gate (B b g)) (b : Fin 16) (h w c : Fin 64) :
    val_main_v11 (F := Ideal) x0 (ix4 b h w c) = mix (fun g => gate (B b g)) (arrOf x0 b h w) c := by
  rw [val_main_v11_apply, val_main_cst_3_apply, Ideal.ofBits_def, Ideal.ofBits_zero_f32, zero_add]
  unfold mix
  refine Finset.sum_congr rfl fun k _ => ?_
  rw [val_main_v10_apply, val_main_v9_apply, val_main_v0_apply]
  rw [show idx_main_v11 (ix4 b h w c) k = ix5 b h w k c from idx_lift b h w k c,
    show idx_main_v9 (ix5 b h w k c) = ix5 b 0 0 k 0 from idx_gate b h w k c, idx_in b h w k c, hB]
  rfl

/-- Launch 1's agreement: the host's sum over rows, columns and channels of the mixed array against the input. -/
theorem agreeStage1 (x0 : (⟨S16x64x64x512, .f32⟩ : BufTy).Contents (Elt Ideal)) (M : Fin 16 → Fin 64 → Fin 64 → Fin 64 → EReal)
    (hM : ∀ b h w c, val_main_v11 (F := Ideal) x0 (ix4 b h w c) = M b h w c) (b : Fin 16) (g : Fin 8) :
    val_main_v15 (F := Ideal) x0 (ix2 b g) = ∑ h : Fin 64, ∑ w : Fin 64, ∑ c : Fin 64, M b h w c * arrOf x0 b h w (lane g c) := by
  have hy : ∀ b h w g c, val_main_v14 (F := Ideal) x0 (ix5 b h w g c) = M b h w c * arrOf x0 b h w (lane g c) := by
    intro b h w g c
    rw [val_main_v14_apply, val_main_v13_apply, val_main_v12_apply, val_main_v0_apply]
    rw [show idx_main_v12 (idx_main_v13 (ix5 b h w g c)) = ix4 b h w c from idx_keep b h w g c, idx_in b h w g c, hM]
    rfl
  unfold val_main_v15
  generalize val_main_v14 (F := Ideal) x0 = y0 at hy ⊢
  simp only [Host.reduceAdd, Ideal.hostReduceAdd_def]
  refine (Cert.Rank5Sum.hostReduceAdd_124_apply _ y0 _ b g).trans ?_
  rw [val_main_cst_4_apply, Ideal.ofBits_def, Ideal.ofBits_zero_f32, zero_add]
  exact Finset.sum_congr rfl fun h _ => Finset.sum_congr rfl fun w _ => Finset.sum_congr rfl fun c _ => hy b h w g c

/-- The logits after launch 1: the previous logits plus the agreement. -/
theorem logitStage1 (x0 : (⟨S16x64x64x512, .f32⟩ : BufTy).Contents (Elt Ideal)) (b : Fin 16) (g : Fin 8) :
    val_main_v17 (F := Ideal) x0 (ix5 b 0 0 g 0)
      = val_main_v1 (F := Ideal) (ix5 b 0 0 g 0) + val_main_v15 (F := Ideal) x0 (ix2 b g) := by
  rw [val_main_v17_apply, val_main_v16_apply]
  rw [show idx_main_v16 (ix5 b 0 0 g 0) = ix2 b g from idx_col b g]
  rfl

/-- Launch 2's mixed array: the gated sum over the group axis of the reshaped input. -/
theorem mixStage2 (x0 : (⟨S16x64x64x512, .f32⟩ : BufTy).Contents (Elt Ideal)) (B : Fin 16 → Fin 8 → EReal)
    (hB : ∀ b g, val_main_v23 (F := Ideal) x0 (ix5 b 0 0 g 0) = gate (B b g)) (b : Fin 16) (h w c : Fin 64) :
    val_main_v26 (F := Ideal) x0 (ix4 b h w c) = mix (fun g => gate (B b g)) (arrOf x0 b h w) c := by
  rw [val_main_v26_apply, val_main_cst_7_apply, Ideal.ofBits_def, Ideal.ofBits_zero_f32, zero_add]
  unfold mix
  refine Finset.sum_congr rfl fun k _ => ?_
  rw [val_main_v25_apply, val_main_v24_apply, val_main_v0_apply]
  rw [show idx_main_v26 (ix4 b h w c) k = ix5 b h w k c from idx_lift b h w k c,
    show idx_main_v24 (ix5 b h w k c) = ix5 b 0 0 k 0 from idx_gate b h w k c, idx_in b h w k c, hB]
  rfl

/-- Launch 2's agreement: the host's sum over rows, columns and channels of the mixed array against the input. -/
theorem agreeStage2 (x0 : (⟨S16x64x64x512, .f32⟩ : BufTy).Contents (Elt Ideal)) (M : Fin 16 → Fin 64 → Fin 64 → Fin 64 → EReal)
    (hM : ∀ b h w c, val_main_v26 (F := Ideal) x0 (ix4 b h w c) = M b h w c) (b : Fin 16) (g : Fin 8) :
    val_main_v30 (F := Ideal) x0 (ix2 b g) = ∑ h : Fin 64, ∑ w : Fin 64, ∑ c : Fin 64, M b h w c * arrOf x0 b h w (lane g c) := by
  have hy : ∀ b h w g c, val_main_v29 (F := Ideal) x0 (ix5 b h w g c) = M b h w c * arrOf x0 b h w (lane g c) := by
    intro b h w g c
    rw [val_main_v29_apply, val_main_v28_apply, val_main_v27_apply, val_main_v0_apply]
    rw [show idx_main_v27 (idx_main_v28 (ix5 b h w g c)) = ix4 b h w c from idx_keep b h w g c, idx_in b h w g c, hM]
    rfl
  unfold val_main_v30
  generalize val_main_v29 (F := Ideal) x0 = y0 at hy ⊢
  simp only [Host.reduceAdd, Ideal.hostReduceAdd_def]
  refine (Cert.Rank5Sum.hostReduceAdd_124_apply _ y0 _ b g).trans ?_
  rw [val_main_cst_8_apply, Ideal.ofBits_def, Ideal.ofBits_zero_f32, zero_add]
  exact Finset.sum_congr rfl fun h _ => Finset.sum_congr rfl fun w _ => Finset.sum_congr rfl fun c _ => hy b h w g c

/-- The logits after launch 2: the previous logits plus the agreement. -/
theorem logitStage2 (x0 : (⟨S16x64x64x512, .f32⟩ : BufTy).Contents (Elt Ideal)) (b : Fin 16) (g : Fin 8) :
    val_main_v32 (F := Ideal) x0 (ix5 b 0 0 g 0)
      = val_main_v17 (F := Ideal) x0 (ix5 b 0 0 g 0) + val_main_v30 (F := Ideal) x0 (ix2 b g) := by
  rw [val_main_v32_apply, val_main_v31_apply]
  rw [show idx_main_v31 (ix5 b 0 0 g 0) = ix2 b g from idx_col b g]
  rfl

/-- Launch 3's mixed array: the gated sum over the group axis of the reshaped input. -/
theorem mixStage3 (x0 : (⟨S16x64x64x512, .f32⟩ : BufTy).Contents (Elt Ideal)) (B : Fin 16 → Fin 8 → EReal)
    (hB : ∀ b g, val_main_v38 (F := Ideal) x0 (ix5 b 0 0 g 0) = gate (B b g)) (b : Fin 16) (h w c : Fin 64) :
    val_main_v41 (F := Ideal) x0 (ix4 b h w c) = mix (fun g => gate (B b g)) (arrOf x0 b h w) c := by
  rw [val_main_v41_apply, val_main_cst_11_apply, Ideal.ofBits_def, Ideal.ofBits_zero_f32, zero_add]
  unfold mix
  refine Finset.sum_congr rfl fun k _ => ?_
  rw [val_main_v40_apply, val_main_v39_apply, val_main_v0_apply]
  rw [show idx_main_v41 (ix4 b h w c) k = ix5 b h w k c from idx_lift b h w k c,
    show idx_main_v39 (ix5 b h w k c) = ix5 b 0 0 k 0 from idx_gate b h w k c, idx_in b h w k c, hB]
  rfl

/-! ## The recurrence -/

/-- The reference's logits after the first iteration. -/
theorem logits1 (x0 : (⟨S16x64x64x512, .f32⟩ : BufTy).Contents (Elt Ideal)) (b : Fin 16) (g : Fin 8) :
    val_main_v17 (F := Ideal) x0 (ix5 b 0 0 g 0) = step (fun _ _ => 0) (arrOf x0) b g := by
  rw [logitStage1, zero_v1]
  rw [agreeStage1 x0 (fun b h w c => mix (fun g => gate ((fun _ _ => (0 : EReal)) b g)) (arrOf x0 b h w) c)
    (fun b h w c => mixStage1 x0 (fun _ _ => 0) (fun b g => by rw [gate_v8, zero_v1]) b h w c) b g]
  rfl

/-- The reference's logits after the second iteration. -/
theorem logits2 (x0 : (⟨S16x64x64x512, .f32⟩ : BufTy).Contents (Elt Ideal)) (b : Fin 16) (g : Fin 8) :
    val_main_v32 (F := Ideal) x0 (ix5 b 0 0 g 0) = logits (arrOf x0) b g := by
  rw [logitStage2, logits1]
  rw [agreeStage2 x0 (fun b h w c => mix (fun g => gate (step (fun _ _ => 0) (arrOf x0) b g)) (arrOf x0 b h w) c)
    (fun b h w c => mixStage2 x0 (step (fun _ _ => 0) (arrOf x0)) (fun b g => by rw [gate_v23, logits1]) b h w c) b g]
  rfl

/-- THE REFERENCE'S RESULT, index by index: the routed output of the input array. -/
theorem result_apply (x0 : (⟨S16x64x64x512, .f32⟩ : BufTy).Contents (Elt Ideal)) (b : Fin 16) (h w c : Fin 64) :
    val_main_v43 (F := Ideal) x0 (ix4 b h w c) = routed (arrOf x0) b h w c := by
  rw [val_main_v43_apply, val_main_v42_apply, idx_out]
  exact mixStage3 x0 (logits (arrOf x0)) (fun b g => by rw [gate_v38, logits2]) b h w c

theorem result_eq (x0 : (⟨S16x64x64x512, .f32⟩ : BufTy).Contents (Elt Ideal)) :
    val_main_v43 (F := Ideal) x0 = routedArr x0 := by
  funext i
  obtain ⟨b, h, w, c, rfl⟩ : ∃ (b : Fin 16) (h w c : Fin 64), i = ix4 b h w c := ⟨i 0, i 1, i 2, i 3, eq_ix4 i⟩
  exact result_apply x0 b h w c

end Cert.ReferenceIdeal.RefValue

end
-- ==== Proof.lean ====
/-
  The certificate of the routing kernel against its jnp reference.

  The kernel runs three launches of one Pallas kernel among host operations: from zero logits β, each pass takes the
  gate 1 / (1 + exp (-β)), mixes the eight lane groups of the input under it, and (first two passes) adds to β the
  agreement of the mixed value with each group, accumulated per tile of four rows and summed over the sixteen tiles on
  the host; the third pass's mixed array is the result.  The reference does the same on a [16, 64, 64, 8, 64] view of
  the input with whole-array sums.  At the ideal values both results are `routed` of the input by coordinates
  (Proof/Routing.lean): the two sides differ only in how finite sums over the extended reals are grouped, so no
  finiteness of the input is used.  The three frames are the generated ones (the reference's from its generated run);
  the ideal pass rewrote nothing, so the idealization statement is trivial.
-/
import proofs.«137533_j24747601560077_1_alg».proof.Defs
import proofs.«137533_j24747601560077_1_alg».proof.Proof.Gen.Kernel
import proofs.«137533_j24747601560077_1_alg».proof.Proof.Gen.Kernel.Skeleton
import proofs.«137533_j24747601560077_1_alg».proof.Proof.Gen.Kernel.Launch
import proofs.«137533_j24747601560077_1_alg».proof.Proof.Gen.Kernel.Points
import proofs.«137533_j24747601560077_1_alg».proof.Proof.Gen.Kernel.Frame
import proofs.«137533_j24747601560077_1_alg».proof.Proof.Gen.KernelIdeal
import proofs.«137533_j24747601560077_1_alg».proof.Proof.Gen.KernelIdeal.Skeleton
import proofs.«137533_j24747601560077_1_alg».proof.Proof.Gen.KernelIdeal.Launch
import proofs.«137533_j24747601560077_1_alg».proof.Proof.Gen.KernelIdeal.Points
import proofs.«137533_j24747601560077_1_alg».proof.Proof.Gen.KernelIdeal.Frame
import proofs.«137533_j24747601560077_1_alg».proof.Proof.Gen.ReferenceIdeal
import proofs.«137533_j24747601560077_1_alg».proof.Proof.Gen.Pre_finite_inputs
import proofs.«137533_j24747601560077_1_alg».proof.Proof.Gen.ReferenceIdeal.Run
import proofs.«137533_j24747601560077_1_alg».proof.Proof.Gen.ReferenceIdeal.Read
import proofs.«137533_j24747601560077_1_alg».proof.Proof.KernelRun
import proofs.«137533_j24747601560077_1_alg».proof.Proof.Chain
import proofs.«137533_j24747601560077_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values both programs end with the routed output of the (agreeing) input arrays. -/
theorem algebraic : Cert.algebraic_KernelIdeal_ReferenceIdeal := by
  intro m ρ m' ρ' _ hagree
  refine ⟨fun c => Cert.Routing.routedArr (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Chain.w6_result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v43_eq (F := Ideal) _).trans ((Cert.ReferenceIdeal.RefValue.result_eq _).trans ?_)
    rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
